-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x40A00000#32 ((67108864 / 13421773 : ℝ) : EReal)
  ∧ IdealRules.named_const.Statement Cert.KernelIdeal.κ "inv_t" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x128 : Shape := ⟨3, ![8192, 1, 128]⟩
abbrev S8192 : Shape := ⟨1, ![8192]⟩
abbrev S_ : Shape := ⟨0, ![]⟩

class Facts : Prop where
  bcast_S_S8192x1x128 : S_.BroadcastsInDim S8192x1x128 (![] : Fin 0 → Fin S8192x1x128.rank)
  reducesTo_S8192x1x128_S_d0_1_2 : S8192x1x128.ReducesTo [0, 1, 2] S_
  h_S_ : 0 < S_.numel

variable [Facts]

def fn {F : FTy → Type} [FloatOps F] (main_arg0 : FVec F S8192x1x128 .f32) (main_arg1 : IVec S8192 32) : IVec S_ 1 :=
  let main_v0 : FVec F S8192x1x128 .f32 := Host.absf main_arg0
  let main_cst : FVec F S_ .f32 := constant S_ .f32 0x7F800000#32
  let main_v1 : FVec F S8192x1x128 .f32 := broadcastInDim S8192x1x128 ![] bcast_S_S8192x1x128 main_cst
  let main_v2 : IVec S8192x1x128 1 := cmpf .olt main_v0 main_v1
  let main_c : IVec S_ 1 := constantI S_ 1 1#1
  let main_v3 : IVec S_ 1 := (fun x v => Host.reduce IntOp.andi x v reducesTo_S8192x1x128_S_d0_1_2 h_S_) main_v2 main_c
  main_v3
-- ==== Kernel.lean ====
abbrev S8192x1x128 : Shape := ⟨3, ![8192, 1, 128]⟩
abbrev S8192 : Shape := ⟨1, ![8192]⟩
abbrev S8192x128 : Shape := ⟨2, ![8192, 128]⟩
abbrev S8192x1 : Shape := ⟨2, ![8192, 1]⟩
abbrev S1x8192 : Shape := ⟨2, ![1, 8192]⟩
abbrev S256x1 : Shape := ⟨2, ![256, 1]⟩
abbrev S256x128 : Shape := ⟨2, ![256, 128]⟩
abbrev S256x8192 : Shape := ⟨2, ![256, 8192]⟩
abbrev S256 : Shape := ⟨1, ![256]⟩
abbrev S256x256 : Shape := ⟨2, ![256, 256]⟩
abbrev S_ : Shape := ⟨0, ![]⟩

abbrev nBuf : Space → Nat
  | .hbm => 11
  | .vmem => 5
  | .smem => 0
  | _ => 0

abbrev bufTy : (tb : Table) → Fin (tcTables nBuf tb) → BufTy
  | .hbm, ⟨0, _⟩ => ⟨S8192x1x128, .f32⟩
  | .hbm, ⟨1, _⟩ => ⟨S8192, .i32⟩
  | .hbm, ⟨2, _⟩ => ⟨S8192x128, .f32⟩
  | .hbm, ⟨3, _⟩ => ⟨S8192x128, .bf16⟩
  | .hbm, ⟨4, _⟩ => ⟨S8192x1, .i32⟩
  | .hbm, ⟨5, _⟩ => ⟨S1x8192, .i32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8192x128, .bf16⟩
  | .local _ .vmem, ⟨1, _⟩ => ⟨S8192x1, .i32⟩
  | .local _ .vmem, ⟨2, _⟩ => ⟨S1x8192, .i32⟩
  | .local _ .vmem, ⟨3, _⟩ => ⟨S256x1, .f32⟩
  | .local _ .vmem, ⟨4, _⟩ => ⟨S256x1, .f32⟩
  | _, _ => ⟨S8192x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
def k0_off2 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v31 : Index := Scalar.indexCast v1
  let c0_9 : Index := 0#32
  ![v31.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x1x128_S8192x128 : S8192x1x128.ShapeCasts S8192x128
  bitsLt_bf16_f32 : FTy.bits .bf16 < FTy.bits .f32
  shapeCasts_S8192_S8192x1 : S8192.ShapeCasts S8192x1
  shapeCasts_S8192_S1x8192 : S8192.ShapeCasts S1x8192
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S256x8192_S256 : S256x8192.Reduces [1] S256
  shapeCasts_S256_S256x1 : S256.ShapeCasts S256x1
  broadcasts_S256x1_S256x8192 : S256x1.Broadcasts S256x8192
  broadcasts_S256x1_S256x256 : S256x1.Broadcasts S256x256
  iota_S256x256_d0_w32 : S256x256.Iotas .tc 32 [0]
  iota_S256x256_d1_w32 : S256x256.Iotas .tc 32 [1]
  reduces_S256x256_S256 : S256x256.Reduces [1] S256
  h_S256x1 : 0 < S256x1.numel
  shapeCasts_S256x1_S256x1 : S256x1.ShapeCasts S256x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  natLt_1_32 : 1 < 32
  inb_S256x1_S256x1_0_0 : ∀ a, (![0, 0] : Fin 2 → Nat) a + S256x1.size a ≤ S256x1.size a
  reducesTo_S8192x1_S_d0_1 : S8192x1.ReducesTo [0, 1] S_
  h_S_ : 0 < S_.numel
  dot_S256x128_S8192x128_S256x8192_1_1_0_0_n_n_wf : DotDims.WF S256x128 S8192x128 S256x8192 [1] [1] [0] [0] [] []
  dot_S256x128_S256x128_S256x256_1_1_0_0_n_n_wf : DotDims.WF S256x128 S256x128 S256x256 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x128.size a ≤ S8192x128.size a
  k0_off2_inb : ∀ i : grid0.Coords, ∀ a, (k0_off2 i) a + S256x1.size a ≤ S8192x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S8192x1.size a
  hwx0_1 : ∀ i : grid0.Coords, EltTy.bits .i32 = 32 ∨ (Rect.block (s := S8192x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf
def dot_S256x128_S256x128_S256x256_1_1_0_0_n_n : DotDims S256x128 S256x128 S256x256 where
  lhsContracting := [1]
  rhsContracting := [1]
  lhsNonContracting := [0]
  rhsNonContracting := [0]
  lhsBatch := []
  rhsBatch := []
  wf := dot_S256x128_S256x128_S256x256_1_1_0_0_n_n_wf

abbrev win0_0 : Pipeline.Window sig grid0 :=
  Pipeline.Window.ofSpec (Memref.whole main_v1) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1x128 : Shape := ⟨3, ![8192, 1, 128]⟩
abbrev S8192 : Shape := ⟨1, ![8192]⟩
abbrev S8192x128 : Shape := ⟨2, ![8192, 128]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x1x128, .f32⟩
  | .hbm, ⟨1, _⟩ => ⟨S8192, .i32⟩
  | .hbm, ⟨2, _⟩ => ⟨S8192x128, .f32⟩
  | .hbm, ⟨3, _⟩ => ⟨S8192x1, .i32⟩
  | .hbm, ⟨4, _⟩ => ⟨S1x8192, .i32⟩
  | .hbm, ⟨5, _⟩ => ⟨S8192x8192, .i32⟩
  | .hbm, ⟨6, _⟩ => ⟨S8192x8192, .i32⟩
  | .hbm, ⟨7, _⟩ => ⟨S8192x8192, .i1⟩
  | .hbm, ⟨8, _⟩ => ⟨S8192x8192, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x1, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  shapeCasts_S8192x1x128_S8192x128 : S8192x1x128.ShapeCasts S8192x128
  shapeCasts_S8192_S8192x1 : S8192.ShapeCasts S8192x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KPiece.lean ====
import proofs.«149898_j74234214744331_2_alg».proof.Proof.Gen.KernelIdeal.Frame
import Idealize.ShloMosaic.Lib.Pipeline.Value
import Idealize.ShloMosaic.Lib.Tactic

/-!
# What one grid point leaves in the output block

At grid point `i` the body reads rows `256·i … 256·i + 255` of the feature matrix and of the label column, the whole
feature matrix and the whole label row, and stores one `[256, 1]` block: the per-row loss of those 256 rows. This file
reads the block the run leaves as the body's arithmetic applied to those four loads.
-/

set_option maxRecDepth 16384

noncomputable section

open Idealize.ShloMosaic Idealize.ShloMosaic.TcCoe Idealize.SL.Sem

namespace Cert.KernelIdeal.SupCon

open Cert.KernelIdeal Cert.KernelIdeal.Gen

variable {F : FTy → Type} [FloatOps F] [Named F]

theorem hz : (![0, 0] : Fin 2 → Nat) = fun _ => 0 := funext fun a => by fin_cases a <;> rfl

/-- The 256 feature rows of grid point `i`: rows `256·i + r` of the whole matrix. -/
def qrows (i : grid0.Coords) (x0 : Vec F S8192x128 .bf16) : Vec F S256x128 .bf16 :=
  View.ld x0 (Rect.unit (s := S8192x128) (k0_off1 i) S256x128.size (k0_off1_inb i))

/-- The 256 labels of grid point `i`: entries `256·i + r` of the label column. -/
def lrows (i : grid0.Coords) (x1 : Vec F S8192x1 .i32) : Vec F S256x1 .i32 :=
  View.ld x1 (Rect.unit (s := S8192x1) (k0_off2 i) S256x1.size (k0_off2_inb i))

/-- The block the body stores, as a function of the three windows' contents. -/
def blockOf (i : grid0.Coords) (x0 : Vec F S8192x128 .bf16) (x1 : Vec F S8192x1 .i32) (x2 : Vec F S1x8192 .i32) :
    Vec F S256x1 .f32 :=
  k0_pay1 (k0_pay6 (qrows i x0) x0) (k0_pay7 (qrows i x0) x0) (k0_pay8 (lrows i x1) x2)
    (k0_pay9 (qrows i x0) x0 (lrows i x1) x2)

/-- The output's staging buffer after the body: its one covering store's payload, whose loads read the whole
    input buffers, two of them through the point's 256-row rectangle. -/
theorem out_eq (c : Dev nD) (i : grid0.Coords) (a1 : Memref sig .tc .vmem S8192x128 .bf16) (h1 : a1.IsWhole)
    (a2 : Memref sig .tc .vmem S8192x1 .i32) (h2 : a2.IsWhole) (a3 : Memref sig .tc .vmem S1x8192 .i32) (h3 : a3.IsWhole)
    (a4 : Memref sig .tc .vmem S256x1 .f32) (h4 : a4.IsWhole)
    (x0 : Vec F S8192x128 .bf16) (x1 : Vec F S8192x1 .i32) (x2 : Vec F S1x8192 .i32) :
    out0_A_3 c i a1 h1 a2 h2 a3 h3 a4 h4 x0 x1 x2 = blockOf i x0 x1 x2 := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz]
  simp only [View.readAt_eq_ld, h1.read_unread, h2.read_unread, h3.read_unread,
    View.ld_unit_zero (S := S8192x128) hz, View.ld_unit_zero (S := S1x8192) hz]
  rfl

end Cert.KernelIdeal.SupCon

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibRealOps.lean ====
import Idealize.ShloMosaic.PureOps.Ideal
import Idealize.ShloMosaic.PureOps.Ideal.Laws
import Idealize.ShloMosaic.PureOps.IdealRules

/-!
# Real-valued arrays are closed under the whole-array operations

At the ideal instance a float array is a function into the extended reals. An array is
*all real* when every entry is (the image of) a real number. This file shows that the
elementwise arithmetic, the re-indexings (broadcast, gather), the finite sums (scatter-add,
dot products) and the quotient 1 / max(y, 1) keep an array all real: a finite sum or a
product of reals is a real, the maximum of two reals is a real, and a quotient of reals with a
nonzero denominator is a real.
-/

open Idealize Idealize.ShloMosaic

namespace Cert.Proof.RealOps

/-- Every entry of the array is a real number. -/
def AllReal {ι : Type*} (f : ι → EReal) : Prop := ∀ i, ∃ r : ℝ, f i = (r : EReal)

/-! ### Scalars: sums, products, maxima and finite sums of reals are reals -/

theorem real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb
  exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

theorem real_max {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  exact ⟨max x y, (EReal.coe_strictMono.monotone.map_max).symm⟩

/-- A finite sum of reals is a real: by induction on the index set, one summand at a time. -/
theorem real_sum {ι : Type*} (t : Finset ι) (f : ι → EReal) (h : ∀ i ∈ t, ∃ r : ℝ, f i = (r : EReal)) :
    ∃ r : ℝ, ∑ i ∈ t, f i = (r : EReal) := by
  classical
  induction t using Finset.induction_on with
  | empty => exact ⟨0, by rw [Finset.sum_empty, EReal.coe_zero]⟩
  | insert a t ha ih =>
    rw [Finset.sum_insert ha]
    exact real_add (h a (Finset.mem_insert_self a t)) (ih fun i hi => h i (Finset.mem_insert_of_mem hi))

/-! ### 1. Elementwise arithmetic -/

theorem AllReal.addf {s : Shape} {x y : FVec Ideal s .f32} (hx : AllReal x) (hy : AllReal y) :
    AllReal (ShloMosaic.addf x y) := fun i => real_add (hx i) (hy i)

theorem AllReal.subf {s : Shape} {x y : FVec Ideal s .f32} (hx : AllReal x) (hy : AllReal y) :
    AllReal (ShloMosaic.subf x y) := fun i => real_sub (hx i) (hy i)

theorem AllReal.mulf {s : Shape} {x y : FVec Ideal s .f32} (hx : AllReal x) (hy : AllReal y) :
    AllReal (ShloMosaic.mulf x y) := fun i => real_mul (hx i) (hy i)

theorem AllReal.maximumf {s : Shape} {x y : FVec Ideal s .f32} (hx : AllReal x) (hy : AllReal y) :
    AllReal (ShloMosaic.maximumf x y) := fun i => real_max (hx i) (hy i)

/-! ### 2. Re-indexings: the result reads the operand at some index -/

theorem AllReal.broadcastInDim {s t : Shape} (dims : Fin s.rank → Fin t.rank) (h : s.BroadcastsInDim t dims)
    {x : FVec Ideal s .f32} (hx : AllReal x) : AllReal (ShloMosaic.broadcastInDim t dims h x) :=
  fun _ => hx _

theorem AllReal.gather {s si t : Shape} {w : Nat} (d : GatherDims s si t) {x : FVec Ideal s .f32} (idx : IVec si w)
    (hx : AllReal x) : AllReal (Host.gather d x idx) :=
  fun _ => hx _

/-! ### 3. Scatter-add: the operand's entry plus a finite sum of update entries -/

theorem AllReal.scatterAdd {s si u : Shape} {w : Nat} (d : ScatterDims s si u) {x : FVec Ideal s .f32}
    (idx : IVec si w) {upd : FVec Ideal u .f32} (hx : AllReal x) (hu : AllReal upd) :
    AllReal (Host.scatterAdd (F := Ideal) d x idx upd) := by
  intro i
  unfold Host.scatterAdd
  rw [Ideal.hostScatterAdd_def]
  unfold Ideal.hostScatterAdd
  exact real_add (hx i) (real_sum _ _ fun j _ => hu j)

/-! ### 4. Dot products: a finite sum of products -/

theorem AllReal.dotGeneral {sl sr so : Shape} (d : DotDims sl sr so) (prec : Option ContractPrecision)
    {l : FVec Ideal sl .f32} {r : FVec Ideal sr .f32} (hl : AllReal l) (hr : AllReal r) :
    AllReal (Host.dotGeneral (F := Ideal) d prec l r) := by
  intro j
  show ∃ q : ℝ, FloatOps.dotGeneral d prec .single l r j = (q : EReal)
  rw [Ideal.dotGeneral_apply]
  exact real_sum _ _ fun k _ => real_mul (hl _) (hr _)

/-- With any all-real accumulator. -/
theorem AllReal.matmul_acc {sl sr so : Shape} (d : DotDims sl sr so) (prec : Option ContractPrecision)
    {l : FVec Ideal sl .f32} {r : FVec Ideal sr .f32} {acc : FVec Ideal so .f32}
    (hl : AllReal l) (hr : AllReal r) (hacc : AllReal acc) :
    AllReal (FloatOps.matmul d prec l r acc) := by
  intro j
  rw [Ideal.matmul_apply]
  exact real_add (hacc j) (real_sum _ _ fun k _ => real_mul (hl _) (hr _))

theorem AllReal.matmul {sl sr so : Shape} (d : DotDims sl sr so) (prec : Option ContractPrecision)
    {l : FVec Ideal sl .f32} {r : FVec Ideal sr .f32} (hl : AllReal l) (hr : AllReal r) :
    AllReal (FloatOps.matmul d prec l r (constant so .f32 0x00000000#32)) := by
  intro j
  rw [Ideal.matmul_constant_zero_apply]
  exact real_sum _ _ fun k _ => real_mul (hl _) (hr _)

/-! ### 5. The constants 0 and 1 -/

/-- The pattern of the float 1.0 denotes the extended real 1. -/
theorem ofBits_one_f32 : Ideal.ofBits .f32 0x3F800000#32 = 1 := IdealRules.sign_bit.ideal_onePat .f32

theorem constant_zero_apply (S : Shape) (i : S.Idx) : constant (F := Ideal) S .f32 0x00000000#32 i = 0 :=
  Ideal.ofBits_zero_f32

theorem constant_one_apply (S : Shape) (i : S.Idx) : constant (F := Ideal) S .f32 0x3F800000#32 i = 1 :=
  ofBits_one_f32

theorem AllReal.constant_zero (S : Shape) : AllReal (constant (F := Ideal) S .f32 0x00000000#32) :=
  fun i => ⟨0, by rw [constant_zero_apply, EReal.coe_zero]⟩

theorem AllReal.constant_one (S : Shape) : AllReal (constant (F := Ideal) S .f32 0x3F800000#32) :=
  fun i => ⟨1, by rw [constant_one_apply, EReal.coe_one]⟩

/-! ### 6. The reciprocal degree 1 / max(y, 1) -/

/-- A quotient of reals with a nonzero denominator is a real. -/
theorem real_div {a b : EReal} (ha : ∃ r : ℝ, a = (r : EReal)) (hb : ∃ r : ℝ, b = (r : EReal)) (h0 : b ≠ 0) :
    ∃ r : ℝ, Ideal.div a b = (r : EReal) := by
  obtain ⟨x, rfl⟩ := ha; obtain ⟨y, rfl⟩ := hb
  have hy : y ≠ 0 := fun h => h0 (by rw [h, EReal.coe_zero])
  exact ⟨x * (1 / y), by rw [Ideal.div_coe hy, EReal.coe_mul]⟩

/-- Elementwise division by an all-real array with no zero entry. -/
theorem AllReal.hostDivf {s : Shape} {x y : FVec Ideal s .f32} (hx : AllReal x) (hy : AllReal y)
    (h0 : ∀ i, y i ≠ 0) : AllReal (Host.divf (F := Ideal) x y) :=
  fun i => real_div (hx i) (hy i) (h0 i)

/-- For a real r the maximum of r and 1 is the real max r 1, which is at least 1 and so not zero:
    the quotient 1 / max(r, 1) is the real 1 / max r 1. -/
theorem div_one_max_one (r : ℝ) : Ideal.div 1 (max (r : EReal) 1) = ((1 / max r 1 : ℝ) : EReal) := by
  have h1 : max (r : EReal) 1 = ((max r 1 : ℝ) : EReal) := by
    rw [← EReal.coe_one]; exact (EReal.coe_strictMono.monotone.map_max).symm
  have hne : max r 1 ≠ 0 := ne_of_gt (lt_of_lt_of_le one_pos (le_max_right r 1))
  rw [h1, Ideal.div_coe hne, one_mul]

/-- The value of the reciprocal degree at an index where y is the real r. -/
theorem recipDeg_apply {s0 s : Shape} (dims : Fin s0.rank → Fin s.rank) (hb : s0.BroadcastsInDim s dims)
    (y : FVec Ideal s .f32) (i : s.Idx) {r : ℝ} (hr : y i = (r : EReal)) :
    Host.divf (F := Ideal) (ShloMosaic.broadcastInDim s dims hb (constant s0 .f32 0x3F800000#32))
        (ShloMosaic.maximumf y (ShloMosaic.broadcastInDim s dims hb (constant s0 .f32 0x3F800000#32))) i
      = ((1 / max r 1 : ℝ) : EReal) := by
  show Ideal.div (Ideal.ofBits .f32 0x3F800000#32) (max (y i) (Ideal.ofBits .f32 0x3F800000#32)) = _
  rw [ofBits_one_f32, hr, div_one_max_one]

theorem AllReal.recipDeg {s0 s : Shape} (dims : Fin s0.rank → Fin s.rank) (hb : s0.BroadcastsInDim s dims)
    {y : FVec Ideal s .f32} (hy : AllReal y) :
    AllReal (Host.divf (F := Ideal) (ShloMosaic.broadcastInDim s dims hb (constant s0 .f32 0x3F800000#32))
      (ShloMosaic.maximumf y (ShloMosaic.broadcastInDim s dims hb (constant s0 .f32 0x3F800000#32)))) := by
  intro i
  obtain ⟨r, hr⟩ := hy i
  exact ⟨1 / max r 1, recipDeg_apply dims hb y i hr⟩

/-- The literal instance: the scalar 1 broadcast from the rank-zero shape. -/
example {s : Shape} (hb : (⟨0, ![]⟩ : Shape).BroadcastsInDim s ![]) {y : FVec Ideal s .f32} (hy : AllReal y) :
    AllReal (Host.divf (F := Ideal) (ShloMosaic.broadcastInDim s ![] hb (constant (⟨0, ![]⟩ : Shape) .f32 0x3F800000#32))
      (ShloMosaic.maximumf y (ShloMosaic.broadcastInDim s ![] hb (constant (⟨0, ![]⟩ : Shape) .f32 0x3F800000#32)))) := by
  apply AllReal.recipDeg; exact hy

/-! ### 7. The log-softmax identity on reals

For real entries a k, the row maximum M (a fold of max from ⊥ over a nonempty index set) is a
real, the sum S of the exponentials exp (a k - M) is a positive real, so log S is a real; and on
reals  x - (M + L) = (x - M) - L,  while max ⊥ M = M. -/

/-- The coercion of a finite sum of reals is the sum of the coercions. -/
theorem coe_sum_real {ι : Type*} (t : Finset ι) (g : ι → ℝ) :
    ∑ i ∈ t, ((g i : ℝ) : EReal) = ((∑ i ∈ t, g i : ℝ) : EReal) := by
  classical
  induction t using Finset.induction_on with
  | empty => rw [Finset.sum_empty, Finset.sum_empty, EReal.coe_zero]
  | insert a t ha ih => rw [Finset.sum_insert ha, Finset.sum_insert ha, ih, EReal.coe_add]

/-- The fold of max from ⊥ over a nonempty finite set of reals is a real: the first element
    absorbs ⊥, and each further step is a maximum of two reals. -/
theorem real_fold_max {ι : Type*} (t : Finset ι) (f : ι → EReal) (h : ∀ i ∈ t, ∃ r : ℝ, f i = (r : EReal))
    (ht : t.Nonempty) : ∃ r : ℝ, t.fold max (⊥ : EReal) f = (r : EReal) := by
  classical
  induction t using Finset.induction_on with
  | empty => exact absurd ht Finset.not_nonempty_empty
  | insert a s ha ih =>
    rw [Finset.fold_insert ha]
    rcases s.eq_empty_or_nonempty with rfl | hs
    · rw [Finset.fold_empty, max_bot_right]; exact h a (Finset.mem_insert_self a _)
    · exact real_max (h a (Finset.mem_insert_self a _)) (ih (fun i hi => h i (Finset.mem_insert_of_mem hi)) hs)

/-- The logarithm of a positive real is a real. -/
theorem log_coe_of_pos {σ : ℝ} (h : 0 < σ) : Ideal.log (σ : EReal) = ((Real.log σ : ℝ) : EReal) := by
  rw [Ideal.log_coe, if_neg (not_le.mpr h)]

/-- On reals, subtracting a sum is subtracting twice; and ⊥ is neutral for max. -/
theorem sub_add_eq_sub_max_bot_sub {x m l : EReal} (hx : ∃ r : ℝ, x = (r : EReal)) (hm : ∃ r : ℝ, m = (r : EReal))
    (hl : ∃ r : ℝ, l = (r : EReal)) : x - (m + l) = (x - max ⊥ m) - l := by
  obtain ⟨x, rfl⟩ := hx; obtain ⟨m, rfl⟩ := hm; obtain ⟨l, rfl⟩ := hl
  rw [max_bot_left, ← EReal.coe_add, ← EReal.coe_sub, ← EReal.coe_sub, ← EReal.coe_sub, sub_add_eq_sub_sub]

section LogSoftmax
variable {ι : Type*} [Fintype ι] [Nonempty ι]

/-- The row maximum is a real. -/
theorem real_rowMax {a : ι → EReal} (ha : AllReal a) :
    ∃ m : ℝ, Finset.univ.fold max (⊥ : EReal) a = (m : EReal) :=
  real_fold_max Finset.univ a (fun i _ => ha i) Finset.univ_nonempty

/-- The sum of the exponentials of the entries shifted by a real is a positive real. -/
theorem real_sumExp_pos {a : ι → EReal} (ha : AllReal a) {M : EReal} (hM : ∃ m : ℝ, M = (m : EReal)) :
    ∃ σ : ℝ, 0 < σ ∧ ∑ k, Ideal.exp (a k - M) = (σ : EReal) := by
  obtain ⟨m, rfl⟩ := hM
  choose r hr using ha
  refine ⟨∑ k, Real.exp (r k - m), Finset.sum_pos (fun k _ => Real.exp_pos _) Finset.univ_nonempty, ?_⟩
  rw [← coe_sum_real]
  exact Finset.sum_congr rfl fun k _ => by rw [hr k, ← EReal.coe_sub, Ideal.exp_coe]

/-- Its logarithm is a real. -/
theorem real_logSumExp {a : ι → EReal} (ha : AllReal a) {M : EReal} (hM : ∃ m : ℝ, M = (m : EReal)) :
    ∃ l : ℝ, Ideal.log (∑ k, Ideal.exp (a k - M)) = (l : EReal) := by
  obtain ⟨σ, hσ, hS⟩ := real_sumExp_pos ha hM
  exact ⟨Real.log σ, by rw [hS, log_coe_of_pos hσ]⟩

/-- The log-softmax identity, with the row maximum and the sum of exponentials spelled out. -/
theorem logSoftmax_eq {a : ι → EReal} (ha : AllReal a) (j : ι) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  sub_add_eq_sub_max_bot_sub (ha j) (real_rowMax ha) (real_logSumExp ha (real_rowMax ha))

end LogSoftmax

/-- The instance at rows of 47 entries. -/
example (a : Fin 47 → EReal) (ha : AllReal a) (j : Fin 47) :
    a j - (Finset.univ.fold max (⊥ : EReal) a
            + Ideal.log (∑ k, Ideal.exp (a k - Finset.univ.fold max (⊥ : EReal) a)))
      = (a j - max ⊥ (Finset.univ.fold max (⊥ : EReal) a))
          - Ideal.log (∑ k, Ideal.exp (a k - Finset.univ.fold max (⊥ : EReal) a)) :=
  logSoftmax_eq ha j

/-! ### The lemmas fire by apply on the forms a program states -/

example {s si u : Shape} {w : Nat} (d : ScatterDims s si u) (x : FVec Ideal s .f32) (idx : IVec si w)
    (upd : FVec Ideal u .f32) (hx : AllReal x) (hu : AllReal upd) : AllReal (Host.scatterAdd d x idx upd) := by
  apply AllReal.scatterAdd <;> assumption

example {sl sr so : Shape} (d : DotDims sl sr so) (l : FVec Ideal sl .f32) (r : FVec Ideal sr .f32)
    (hl : AllReal l) (hr : AllReal r) : AllReal (Host.dotGeneral d none l r) := by
  apply AllReal.dotGeneral <;> assumption

example {sl sr so : Shape} (d : DotDims sl sr so) (l : FVec Ideal sl .f32) (r : FVec Ideal sr .f32)
    (hl : AllReal l) (hr : AllReal r) : AllReal (ShloMosaic.matmul d none l r (constant so .f32 0x00000000#32)) := by
  apply AllReal.matmul <;> assumption

example {s : Shape} (hb : (⟨0, ![]⟩ : Shape).BroadcastsInDim s ![]) :
    AllReal (ShloMosaic.broadcastInDim s ![] hb (constant (F := Ideal) (⟨0, ![]⟩ : Shape) .f32 0x00000000#32)) := by
  apply AllReal.broadcastInDim; apply AllReal.constant_zero

example {s si t : Shape} {w : Nat} (d : GatherDims s si t) (x y : FVec Ideal s .f32) (idx : IVec si w)
    (hx : AllReal x) (hy : AllReal y) : AllReal (Host.gather d (ShloMosaic.mulf (ShloMosaic.addf x y) (ShloMosaic.maximumf x y)) idx) := by
  apply AllReal.gather; apply AllReal.mulf
  · exact AllReal.addf hx hy
  · exact AllReal.maximumf hx hy

end Cert.Proof.RealOps
-- ==== Proof.LibRowReads.lean ====
import Idealize.ShloMosaic.Lib.Pipeline.Value
import Idealize.ShloMosaic.Lib.ValueIdx
import Idealize.ShloMosaic.Lib.Affine
import Idealize.ShloMosaic.PureOps.Ideal.Laws

/-!
# Rows of a matrix: sums and maxima along the last axis, and a comparison bit as a number

General facts, over the extended reals, about an `[a, b]` array reduced along its last axis, read at a row:

* a kernel's lane sum is the sum of the row; a kernel's lane maximum and the host's maximum-reduce are the fold of
  `max` over the row from the initial value;
* the bit of an integer equality test, widened and read as a signed or as an unsigned integer, is 1 or 0;
* two naturals below `2 ^ 32` have equal 32-bit words only if they are equal.
-/

noncomputable section

open Idealize.ShloMosaic Idealize.ShloMosaic.ValueIdx

namespace Cert.RowReads

/-- Putting column `k` back into the reduced index `r` gives `(r, k)`. -/
theorem lift_last {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A lane sum of an `[a, b]` matrix, read at row `r`, is the sum of that row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_last h r k)

/-- A lane maximum of an `[a, b]` matrix, read at row `r`, is the fold of `max` over that row from the
    accumulator's value. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (r : Fin a) :
    multiReduction .maximumf [1] ⟨1, ![a]⟩ src acc h hφ hacc (ix1 r)
      = (Finset.univ : Finset (Fin b)).fold max (Ideal.ofBits .f32 acc) (fun k => src (ix2 r k)) := by
  rw [Ideal.multiReduction_maximumf_single]
  exact congrArg (fun f => Finset.fold max (Ideal.ofBits .f32 acc) f (Finset.univ : Finset (Fin b)))
    (funext fun k => congrArg src (lift_last h r k))

/-- The host's maximum-reduce of an `[a, b]` matrix along its last axis, read at row `r`: the same fold, from the
    initial value's one element. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_last h r k))

/-! ## A comparison bit as a number -/

/-- The mask entry of two words: 1 when they are equal, else 0. -/
def mask01 (x y : BitVec 32) : EReal := if x = y then 1 else 0

/-- The comparison bit widened to a word and read as a signed integer is that mask entry. -/
theorem sext_cmpi_eq (x y : BitVec 32) :
    ((((IntOp.cmpi .eq x y).setWidth 32).toInt : ℝ) : EReal) = mask01 x y := by
  unfold mask01
  by_cases h : x = y
  · rw [IntOp.cmpi_eq.mpr h, if_pos h, show ((1#1 : BitVec 1).setWidth 32).toInt = 1 by decide]
    simp
  · rw [eq_zero_of_ne_one (fun hc => h (IntOp.cmpi_eq.mp hc)), if_neg h,
      show ((0#1 : BitVec 1).setWidth 32).toInt = 0 by decide]
    simp

/-- The comparison bit read as an unsigned integer is the same mask entry. -/
theorem uext_cmpi_eq (x y : BitVec 32) : ((((IntOp.cmpi .eq x y).toNat : ℝ)) : EReal) = mask01 x y := by
  unfold mask01
  by_cases h : x = y
  · rw [IntOp.cmpi_eq.mpr h, if_pos h, show (1#1 : BitVec 1).toNat = 1 by decide]
    simp
  · rw [eq_zero_of_ne_one (fun hc => h (IntOp.cmpi_eq.mp hc)), if_neg h, show (0#1 : BitVec 1).toNat = 0 by decide]
    simp

/-- Naturals below `2 ^ 32` with the same 32-bit word are equal. -/
theorem ofNat32_inj {p q : ℕ} (hp : p < 2 ^ 32) (hq : q < 2 ^ 32) : BitVec.ofNat 32 p = BitVec.ofNat 32 q ↔ p = q := by
  constructor
  · intro h
    have h2 := congrArg BitVec.toNat h
    simp only [BitVec.toNat_ofNat] at h2
    rwa [Nat.mod_eq_of_lt hp, Nat.mod_eq_of_lt hq] at h2
  · intro h; rw [h]

end Cert.RowReads

end
-- ==== Proof.KPayload.lean ====
import proofs.«149898_j74234214744331_2_alg».proof.Proof.Gen.KernelIdeal.Skeleton
import proofs.«149898_j74234214744331_2_alg».proof.Proof.LibKeepdims
import proofs.«149898_j74234214744331_2_alg».proof.Proof.LibRealOps
import proofs.«149898_j74234214744331_2_alg».proof.Proof.LibRowReads
import Idealize.ShloMosaic.Lib.Pipeline.Value
import Idealize.ShloMosaic.Lib.ValueIdx
import Idealize.ShloMosaic.Lib.ValueLayout
import Idealize.ShloMosaic.PureOps.Ideal.Laws

/-!
# The body's arithmetic, read entry by entry

For a block of 256 feature rows `q`, the whole feature matrix `f`, the block's 256 labels and the whole label row,
this file reads each intermediate of the body at an index, over the extended reals:

* the similarity `sim r j = (∑ₖ q r k · f j k) · c` with `c` the named reciprocal temperature;
* the row maximum, the shifted row `s r j = sim r j - max r`;
* the shifted diagonal entry, picked out of `q qᵀ · c - max` by an iota comparison: a sum over a row of a matrix
  that is zero off the diagonal is its diagonal entry;
* the label mask, the row sums, and the guarded loss.
-/

set_option maxRecDepth 16384

noncomputable section

open Idealize.ShloMosaic Idealize.ShloMosaic.TcCoe Idealize.ShloMosaic.ValueIdx

namespace Cert.KernelIdeal.SupCon

open Cert.KernelIdeal Cert.KernelIdeal.Gen Cert.Keepdims Cert.RowReads

/-! ## The body's intermediates at an index -/

section Payloads

variable (q : Vec Ideal S256x128 .bf16) (f : Vec Ideal S8192x128 .bf16)
variable (lq : Vec Ideal S256x1 .i32) (la : Vec Ideal S1x8192 .i32)

/-- The named reciprocal temperature as the body reads it. -/
abbrev invT : EReal := Named.named (F := Ideal) κ "inv_t" (φ := .f32) 0x40A00000#32

theorem lhs1_0 (i : S256x8192.Idx) (k : dot_S256x128_S8192x128_S256x8192_1_1_0_0_n_n.contr.Idx) : (dot_S256x128_S8192x128_S256x8192_1_1_0_0_n_n.lhsIdx i k 0).val = (i 0).val := by
  unfold DotDims.lhsIdx
  rw [dif_neg (show ¬(0 : Fin S256x128.rank) ∈ dot_S256x128_S8192x128_S256x8192_1_1_0_0_n_n.lhsBatch by decide),
    dif_pos (show (0 : Fin S256x128.rank) ∈ dot_S256x128_S8192x128_S256x8192_1_1_0_0_n_n.lhsNonContracting by decide)]
  rfl
theorem rhs1_0 (i : S256x8192.Idx) (k : dot_S256x128_S8192x128_S256x8192_1_1_0_0_n_n.contr.Idx) : (dot_S256x128_S8192x128_S256x8192_1_1_0_0_n_n.rhsIdx i k 0).val = (i 1).val := by
  unfold DotDims.rhsIdx
  rw [dif_neg (show ¬(0 : Fin S8192x128.rank) ∈ dot_S256x128_S8192x128_S256x8192_1_1_0_0_n_n.rhsBatch by decide),
    dif_pos (show (0 : Fin S8192x128.rank) ∈ dot_S256x128_S8192x128_S256x8192_1_1_0_0_n_n.rhsNonContracting by decide)]
  rfl

/-- The similarity block: row `r` of the block against row `j` of the whole matrix, times the temperature's
    reciprocal. -/
theorem sim_apply (r : Fin 256) (j : Fin 8192) :
    k0_pay3 (F := Ideal) q f (ix2 r j) = (∑ k : Fin 128, q (ix2 r k) * f (ix2 j k)) * invT := by
  unfold k0_pay3 k0_pay2
  rw [shapeCast_self, shapeCast_self]
  show matmul (F := Ideal) dot_S256x128_S8192x128_S256x8192_1_1_0_0_n_n none q f (constant (F := Ideal) S256x8192 .f32 0x00000000#32) (ix2 r j) * invT = _
  refine congrArg (· * invT) ?_
  simp only [matmul]
  rw [Ideal.matmul_constant_zero_apply, ← Equiv.sum_comp (contrEquiv1 dot_S256x128_S8192x128_S256x8192_1_1_0_0_n_n 128 rfl rfl).symm]
  refine Finset.sum_congr rfl fun k _ => ?_
  have hk := contrEquiv1_symm_val dot_S256x128_S8192x128_S256x8192_1_1_0_0_n_n 128 rfl rfl k
  have el : dot_S256x128_S8192x128_S256x8192_1_1_0_0_n_n.lhsIdx (ix2 r j) ((contrEquiv1 dot_S256x128_S8192x128_S256x8192_1_1_0_0_n_n 128 rfl rfl).symm k) = ix2 r k :=
    funext fun a => Fin.ext (by
      match a with
      | ⟨0, _⟩ => exact lhs1_0 _ _
      | ⟨1, _⟩ => exact (dot_S256x128_S8192x128_S256x8192_1_1_0_0_n_n.lhsIdx_val_of_single rfl _ _).trans hk)
  have er : dot_S256x128_S8192x128_S256x8192_1_1_0_0_n_n.rhsIdx (ix2 r j) ((contrEquiv1 dot_S256x128_S8192x128_S256x8192_1_1_0_0_n_n 128 rfl rfl).symm k) = ix2 j k :=
    funext fun a => Fin.ext (by
      match a with
      | ⟨0, _⟩ => exact rhs1_0 _ _
      | ⟨1, _⟩ => exact (dot_S256x128_S8192x128_S256x8192_1_1_0_0_n_n.rhsIdx_val_of_single rfl _ _).trans hk)
  rw [el, er]

/-- The row maximum, kept as a column: the fold of `max` from `-∞`'s pattern over the row of similarities. -/
theorem rmax_apply (r : Fin 256) (u : Fin 1) :
    k0_pay4 (F := Ideal) q f (ix2 r u)
      = (Finset.univ : Finset (Fin 8192)).fold max (Ideal.ofBits .f32 0xFF800000#32)
          (fun j => k0_pay3 (F := Ideal) q f (ix2 r j)) := by
  unfold k0_pay4
  refine (shapeCast_a_a1_apply _ _ r u).trans ?_
  exact rowMax_apply _ _ _ _ _ r

/-- The shifted similarity. -/
theorem shifted_apply (r : Fin 256) (j : Fin 8192) :
    k0_pay5 (F := Ideal) q f (ix2 r j) = k0_pay3 (F := Ideal) q f (ix2 r j) - k0_pay4 (F := Ideal) q f (ix2 r 0) := by
  unfold k0_pay5
  show k0_pay3 (F := Ideal) q f (ix2 r j) - broadcastTo S256x8192 (k0_pay4 (F := Ideal) q f) _ (ix2 r j) = _
  exact congrArg (k0_pay3 (F := Ideal) q f (ix2 r j) - ·) (broadcastTo_a1_ab_apply _ _ r j)

end Payloads

section Payloads2

variable (q : Vec Ideal S256x128 .bf16) (f : Vec Ideal S8192x128 .bf16)
variable (lq : Vec Ideal S256x1 .i32) (la : Vec Ideal S1x8192 .i32)

theorem lhs2_0 (i : S256x256.Idx) (k : dot_S256x128_S256x128_S256x256_1_1_0_0_n_n.contr.Idx) : (dot_S256x128_S256x128_S256x256_1_1_0_0_n_n.lhsIdx i k 0).val = (i 0).val := by
  unfold DotDims.lhsIdx
  rw [dif_neg (show ¬(0 : Fin S256x128.rank) ∈ dot_S256x128_S256x128_S256x256_1_1_0_0_n_n.lhsBatch by decide),
    dif_pos (show (0 : Fin S256x128.rank) ∈ dot_S256x128_S256x128_S256x256_1_1_0_0_n_n.lhsNonContracting by decide)]
  rfl
theorem rhs2_0 (i : S256x256.Idx) (k : dot_S256x128_S256x128_S256x256_1_1_0_0_n_n.contr.Idx) : (dot_S256x128_S256x128_S256x256_1_1_0_0_n_n.rhsIdx i k 0).val = (i 1).val := by
  unfold DotDims.rhsIdx
  rw [dif_neg (show ¬(0 : Fin S256x128.rank) ∈ dot_S256x128_S256x128_S256x256_1_1_0_0_n_n.rhsBatch by decide),
    dif_pos (show (0 : Fin S256x128.rank) ∈ dot_S256x128_S256x128_S256x256_1_1_0_0_n_n.rhsNonContracting by decide)]
  rfl

/-- The block's Gram matrix `q qᵀ` at `(r, c)`. -/
theorem gram_apply (p : FVec Ideal S256x128 .bf16) (r c : Fin 256) :
    matmul (F := Ideal) dot_S256x128_S256x128_S256x256_1_1_0_0_n_n none p p (constant (F := Ideal) S256x256 .f32 0x00000000#32) (ix2 r c)
      = ∑ k : Fin 128, p (ix2 r k) * p (ix2 c k) := by
  simp only [matmul]
  rw [Ideal.matmul_constant_zero_apply, ← Equiv.sum_comp (contrEquiv1 dot_S256x128_S256x128_S256x256_1_1_0_0_n_n 128 rfl rfl).symm]
  refine Finset.sum_congr rfl fun k _ => ?_
  have hk := contrEquiv1_symm_val dot_S256x128_S256x128_S256x256_1_1_0_0_n_n 128 rfl rfl k
  have el : dot_S256x128_S256x128_S256x256_1_1_0_0_n_n.lhsIdx (ix2 r c) ((contrEquiv1 dot_S256x128_S256x128_S256x256_1_1_0_0_n_n 128 rfl rfl).symm k) = ix2 r k :=
    funext fun a => Fin.ext (by
      match a with
      | ⟨0, _⟩ => exact lhs2_0 _ _
      | ⟨1, _⟩ => exact (dot_S256x128_S256x128_S256x256_1_1_0_0_n_n.lhsIdx_val_of_single rfl _ _).trans hk)
  have er : dot_S256x128_S256x128_S256x256_1_1_0_0_n_n.rhsIdx (ix2 r c) ((contrEquiv1 dot_S256x128_S256x128_S256x256_1_1_0_0_n_n 128 rfl rfl).symm k) = ix2 c k :=
    funext fun a => Fin.ext (by
      match a with
      | ⟨0, _⟩ => exact rhs2_0 _ _
      | ⟨1, _⟩ => exact (dot_S256x128_S256x128_S256x256_1_1_0_0_n_n.rhsIdx_val_of_single rfl _ _).trans hk)
  rw [el, er]

/-- A row sum of a `[256, 256]` matrix kept only where the row and column iotas agree is the diagonal entry:
    every other summand is the zero branch of the select. -/
theorem sum_select_diag (d z : FVec Ideal S256x256 .f32) (hz : ∀ i, z i = 0) (h0 : S256x256.Iotas .tc 32 [0])
    (h1 : S256x256.Iotas .tc 32 [1]) (r : Fin 256) :
    ∑ c : Fin 256, select (cmpi .eq (iota .tc S256x256 32 [0] h0) (iota .tc S256x256 32 [1] h1)) d z (ix2 r c)
      = d (ix2 r r) := by
  rw [Finset.sum_eq_single r]
  · show Scalar.select (IntOp.cmpi .eq (iota .tc S256x256 32 [0] h0 (ix2 r r)) (iota .tc S256x256 32 [1] h1 (ix2 r r)))
        (d (ix2 r r)) (z (ix2 r r)) = _
    rw [iota_single_apply, iota_single_apply]
    show Scalar.select (IntOp.cmpi .eq (BitVec.ofNat 32 r.val) (BitVec.ofNat 32 r.val)) _ _ = _
    rw [IntOp.cmpi_eq.mpr rfl]; exact select_one _ _
  · intro c _ hc
    show Scalar.select (IntOp.cmpi .eq (iota .tc S256x256 32 [0] h0 (ix2 r c)) (iota .tc S256x256 32 [1] h1 (ix2 r c)))
        (d (ix2 r c)) (z (ix2 r c)) = 0
    rw [iota_single_apply, iota_single_apply]
    show Scalar.select (IntOp.cmpi .eq (BitVec.ofNat 32 r.val) (BitVec.ofNat 32 c.val)) _ _ = 0
    have hne : ¬ IntOp.cmpi .eq (BitVec.ofNat 32 r.val) (BitVec.ofNat 32 c.val) = 1#1 := fun h => hc (by
      have h2 := congrArg BitVec.toNat (IntOp.cmpi_eq.mp h)
      simp only [BitVec.toNat_ofNat] at h2
      have hr := r.isLt; have hcl := c.isLt
      rw [Nat.mod_eq_of_lt (by omega), Nat.mod_eq_of_lt (by omega)] at h2
      exact Fin.ext h2.symm)
    rw [eq_zero_of_ne_one hne, select_zero]; exact hz _
  · intro h; exact absurd (Finset.mem_univ r) h

/-- The shifted diagonal entry of row `r`: the row's own squared norm times the reciprocal temperature, minus the
    row maximum. -/
theorem diag_apply (r : Fin 256) (u : Fin 1) :
    k0_pay6 (F := Ideal) q f (ix2 r u)
      = (∑ k : Fin 128, q (ix2 r k) * q (ix2 r k)) * invT - k0_pay4 (F := Ideal) q f (ix2 r 0) := by
  unfold k0_pay6 k0_pay2
  rw [shapeCast_self]
  refine (shapeCast_a_a1_apply _ _ r u).trans ?_
  refine (rowSum_apply _ _ _ _ _ r).trans ?_
  refine (sum_select_diag _ _ (fun _ => Ideal.ofBits_zero_f32) _ _ r).trans ?_
  show matmul (F := Ideal) dot_S256x128_S256x128_S256x256_1_1_0_0_n_n none (φ₁ := .bf16) (φ₂ := .bf16) q q (constant (F := Ideal) S256x256 .f32 0x00000000#32) (ix2 r r) * invT
      - broadcastTo S256x256 (k0_pay4 (F := Ideal) q f) _ (ix2 r r) = _
  exact congrArg₂ (· - ·) (congrArg (· * invT) (gram_apply q r r)) (broadcastTo_a1_ab_apply _ _ r r)

/-- The sum of the row's shifted exponentials with the diagonal one subtracted. -/
theorem zsub_apply (r : Fin 256) (u : Fin 1) :
    k0_pay7 (F := Ideal) q f (ix2 r u)
      = (∑ j : Fin 8192, Ideal.exp (k0_pay5 (F := Ideal) q f (ix2 r j))) - Ideal.exp (k0_pay6 (F := Ideal) q f (ix2 r u)) := by
  unfold k0_pay7
  refine congrArg (· - Ideal.exp (k0_pay6 (F := Ideal) q f (ix2 r u))) ?_
  refine (shapeCast_a_a1_apply _ _ r u).trans ?_
  exact rowSum_apply _ _ _ _ _ r

/-- The label mask: row `r`'s label against column `j`'s. -/
theorem lmask_apply (r : Fin 256) (j : Fin 8192) :
    k0_pay8 (F := Ideal) lq la (ix2 r j) = mask01 (lq (ix2 r 0)) (la (ix2 0 j)) := by
  unfold k0_pay8
  rw [shapeCast_self, shapeCast_self]
  show ((((IntOp.cmpi .eq (broadcastTo S256x8192 lq _ (ix2 r j)) (broadcastTo S256x8192 la _ (ix2 r j))).setWidth 32).toInt : ℝ) : EReal) = _
  rw [broadcastTo_a1_ab_apply, broadcastTo_1b_ab_apply]
  exact sext_cmpi_eq _ _

/-- The masked row sum of the shifted similarities. -/
theorem sdl_apply (r : Fin 256) :
    k0_pay9 (F := Ideal) q f lq la (ix1 r)
      = ∑ j : Fin 8192, k0_pay5 (F := Ideal) q f (ix2 r j) * k0_pay8 (F := Ideal) lq la (ix2 r j) := by
  unfold k0_pay9
  exact rowSum_apply _ _ _ _ _ r

/-- The stored loss of row `r` from the four intermediates: the guard `Z > 0`, `log` of the guarded `Z`, the
    numerator, the quotient by the mask's row sum, the negation as `0 - ·`, and the guard again. -/
theorem loss_apply (v28 v30 : FVec Ideal S256x1 .f32) (v40 : FVec Ideal S256x8192 .f32) (v42 : FVec Ideal S256 .f32)
    (r : Fin 256) :
    k0_pay1 (F := Ideal) v28 v30 v40 v42 (ix2 r 0)
      = Scalar.select (Ideal.cmp .ogt (v30 (ix2 r 0)) 0)
          (0 - Ideal.div ((v42 (ix1 r) - v28 (ix2 r 0))
              - Ideal.log (Scalar.select (Ideal.cmp .ogt (v30 (ix2 r 0)) 0) (v30 (ix2 r 0)) 1)
                * ((∑ j : Fin 8192, v40 (ix2 r j)) - 1)) (∑ j : Fin 8192, v40 (ix2 r j)))
          (Ideal.ofBits .f32 0x7FC00000#32) := by
  unfold k0_pay1
  have e43 : shapeCast S256x1 v42 shapeCasts_S256_S256x1 (ix2 r 0) = v42 (ix1 r) := shapeCast_a_a1_apply _ _ r 0
  have e45 : shapeCast S256x1 (multiReduction (F := Ideal) .add [1] S256 v40 0x00000000#32 reduces_S256x8192_S256 (.inl rfl) rfl)
      shapeCasts_S256_S256x1 (ix2 r 0) = ∑ j : Fin 8192, v40 (ix2 r j) :=
    (shapeCast_a_a1_apply _ _ r 0).trans (rowSum_apply _ _ _ _ _ r)
  show Scalar.select (Ideal.cmp .ogt (v30 (ix2 r 0)) (Ideal.ofBits .f32 0x00000000#32))
      (Ideal.ofBits .f32 0x00000000#32 - Ideal.div ((shapeCast S256x1 v42 shapeCasts_S256_S256x1 (ix2 r 0) - v28 (ix2 r 0))
          - Ideal.log (Scalar.select (Ideal.cmp .ogt (v30 (ix2 r 0)) (Ideal.ofBits .f32 0x00000000#32)) (v30 (ix2 r 0))
              (Ideal.ofBits .f32 0x3F800000#32))
            * (shapeCast S256x1 (multiReduction (F := Ideal) .add [1] S256 v40 0x00000000#32 reduces_S256x8192_S256 (.inl rfl) rfl)
                shapeCasts_S256_S256x1 (ix2 r 0) - Ideal.ofBits .f32 0x3F800000#32))
        (shapeCast S256x1 (multiReduction (F := Ideal) .add [1] S256 v40 0x00000000#32 reduces_S256x8192_S256 (.inl rfl) rfl)
          shapeCasts_S256_S256x1 (ix2 r 0)))
      (Ideal.ofBits .f32 0x7FC00000#32) = _
  rw [e43, e45, Ideal.ofBits_zero_f32, Cert.Proof.RealOps.ofBits_one_f32]

end Payloads2

end Cert.KernelIdeal.SupCon

end
-- ==== Proof.LibSupConRow.lean ====
import proofs.«149898_j74234214744331_2_alg».proof.Proof.LibRealOps

/-!
# One row of a supervised-contrastive loss, in two arrangements

Fix a finite index set, a row `a` of similarities, a shift `M`, a mask row `lm` and the row's own column `i`.
Write `s k = a k - M`.

* The *diagonal-subtracting* arrangement takes the whole sum `∑ exp (s k)`, subtracts the diagonal term
  `exp (s i)` to get `Z`, guards `Z > 0`, and forms
  `-( (∑ s k · lm k - s i) - log Z · (∑ lm k - 1) ) / ∑ lm k`.
* The *masking* arrangement multiplies by the off-diagonal mask `1 - [k = i]`: `Z' = ∑ exp (s k) · (1 - [k = i])`
  and `-( ∑ (s k - log Z') · (1 - [k = i]) · lm k ) / ∑ lm k`.

When every `a k`, `M` and every `lm k` is a real number, `lm i = 1`, and the row has a column other than `i`, the two
agree: `Z = Z'` is a positive real (a nonempty sum of exponentials), so the guard holds and `log Z` is a real, and
the numerators agree by distributing the product over the sum — which is where realness is used: over the extended
reals the distributive law fails at the infinities.
-/

noncomputable section

open Idealize Idealize.ShloMosaic

namespace Cert.SupConRow

open Cert.Proof.RealOps

variable {ι : Type*} [Fintype ι] [DecidableEq ι]

/-- A select on the all-ones bit takes its first branch. -/
theorem sel_one {α : Type} (x y : α) : Scalar.select 1#1 x y = x := if_pos rfl

/-- The sum of the shifted exponentials with the diagonal term subtracted. -/
def zSub (a : ι → EReal) (i : ι) (M : EReal) : EReal :=
  (∑ k, Ideal.exp (a k - M)) - Ideal.exp (a i - M)

/-- The diagonal-subtracting arrangement, with its guard; `nan` is what the guard's other branch holds. -/
def subRow (a lm : ι → EReal) (i : ι) (M nan : EReal) : EReal :=
  Scalar.select (Ideal.cmp .ogt (zSub a i M) 0)
    (0 - Ideal.div ((((∑ k, (a k - M) * lm k) - (a i - M))
        - Ideal.log (Scalar.select (Ideal.cmp .ogt (zSub a i M) 0) (zSub a i M) 1) * ((∑ k, lm k) - 1))) (∑ k, lm k))
    nan

/-- The masking arrangement. -/
def maskRow (a lm : ι → EReal) (i : ι) (M : EReal) : EReal :=
  -(Ideal.div (0 + ∑ k, (((a k - M) - Ideal.log (0 + ∑ k', Ideal.exp (a k' - M) * (1 - (if k' = i then 1 else 0))))
      * (1 - (if k = i then 1 else 0))) * lm k) (0 + ∑ k, lm k))

/-- On real data with `lm i = 1` and a second column, the two arrangements are one value. -/
theorem subRow_eq_maskRow (a lm : ι → EReal) (i : ι) (M nan : EReal) (ar lr : ι → ℝ) (m : ℝ)
    (ha : ∀ k, a k = (ar k : EReal)) (hl : ∀ k, lm k = (lr k : EReal)) (hM : M = (m : EReal))
    (hi : lr i = 1) (hne : ∃ j, j ≠ i) : subRow a lm i M nan = maskRow a lm i M := by
  subst hM
  obtain rfl : a = fun k => (ar k : EReal) := funext ha
  obtain rfl : lm = fun k => (lr k : EReal) := funext hl
  have he : ∀ k, Ideal.exp ((ar k : EReal) - (m : EReal)) = ((Real.exp (ar k - m) : ℝ) : EReal) := fun k => by
    rw [← EReal.coe_sub, Ideal.exp_coe]
  have hs : ∀ k, ((ar k : EReal) - (m : EReal)) = ((ar k - m : ℝ) : EReal) := fun k => (EReal.coe_sub _ _).symm
  -- the off-diagonal sum of exponentials is positive
  have hZpos : 0 < (∑ k, Real.exp (ar k - m)) - Real.exp (ar i - m) := by
    obtain ⟨j, hj⟩ := hne
    have h2 : Real.exp (ar i - m) + Real.exp (ar j - m) ≤ ∑ k, Real.exp (ar k - m) := by
      calc Real.exp (ar i - m) + Real.exp (ar j - m)
          = ∑ k ∈ ({i, j} : Finset ι), Real.exp (ar k - m) := by rw [Finset.sum_pair (Ne.symm hj)]
        _ ≤ ∑ k, Real.exp (ar k - m) :=
          Finset.sum_le_sum_of_subset_of_nonneg (Finset.subset_univ _) fun k _ _ => (Real.exp_pos _).le
    have := Real.exp_pos (ar j - m)
    linarith
  have hZ : zSub (fun k => (ar k : EReal)) i (m : EReal)
      = (((∑ k, Real.exp (ar k - m)) - Real.exp (ar i - m) : ℝ) : EReal) := by
    unfold zSub
    simp only [he]
    rw [coe_sum_real, ← EReal.coe_sub]
  have hcmp : Ideal.cmp .ogt ((((∑ k, Real.exp (ar k - m)) - Real.exp (ar i - m) : ℝ)) : EReal) 0 = 1#1 := by
    show BitVec.ofBool (decide ((0 : EReal) < _)) = 1#1
    rw [decide_eq_true (EReal.coe_pos.mpr hZpos)]; rfl
  have hsdl : ∑ k, ((ar k : EReal) - (m : EReal)) * (lr k : EReal) = ((∑ k, (ar k - m) * lr k : ℝ) : EReal) := by
    rw [← coe_sum_real]
    exact Finset.sum_congr rfl fun k _ => by rw [hs, ← EReal.coe_mul]
  have hn : ∑ k, ((lr k : ℝ) : EReal) = ((∑ k, lr k : ℝ) : EReal) := coe_sum_real _ _
  have hδ : ∀ k, (1 - (if k = i then (1 : EReal) else 0)) = (((1 - (if k = i then 1 else 0) : ℝ)) : EReal) := fun k => by
    by_cases h : k = i
    · rw [if_pos h, if_pos h, EReal.coe_sub, EReal.coe_one]
    · rw [if_neg h, if_neg h, EReal.coe_sub, EReal.coe_one, EReal.coe_zero]
  -- the masked sum of exponentials is the same positive real
  have hZr : (0 : EReal) + ∑ k', Ideal.exp ((ar k' : EReal) - (m : EReal)) * (1 - (if k' = i then 1 else 0))
      = (((∑ k, Real.exp (ar k - m)) - Real.exp (ar i - m) : ℝ) : EReal) := by
    rw [zero_add]
    have h1 : ∀ k', Ideal.exp ((ar k' : EReal) - (m : EReal)) * (1 - (if k' = i then (1 : EReal) else 0))
        = ((Real.exp (ar k' - m) * (1 - (if k' = i then 1 else 0)) : ℝ) : EReal) := fun k' => by
      rw [he, hδ, ← EReal.coe_mul]
    simp only [h1]
    rw [coe_sum_real]
    congr 1
    simp only [mul_sub, mul_one, mul_ite, mul_zero, Finset.sum_sub_distrib, Finset.sum_ite_eq', Finset.mem_univ, if_true]
  set Zr : ℝ := (∑ k, Real.exp (ar k - m)) - Real.exp (ar i - m) with hZr_def
  have hlog : Ideal.log ((Zr : ℝ) : EReal) = ((Real.log Zr : ℝ) : EReal) := log_coe_of_pos hZpos
  -- the two numerators
  have hnumK : (((((∑ k, (ar k - m) * lr k : ℝ) : EReal) - ((ar i - m : ℝ) : EReal))
        - ((Real.log Zr : ℝ) : EReal) * (((∑ k, lr k : ℝ) : EReal) - 1)))
      = ((((∑ k, (ar k - m) * lr k) - (ar i - m)) - Real.log Zr * ((∑ k, lr k) - 1) : ℝ) : EReal) := by
    rw [← EReal.coe_one]; norm_cast
  have hnumR : (0 : EReal) + ∑ k, ((((ar k : EReal) - (m : EReal)) - ((Real.log Zr : ℝ) : EReal))
        * (1 - (if k = i then 1 else 0))) * (lr k : EReal)
      = ((((∑ k, (ar k - m) * lr k) - (ar i - m)) - Real.log Zr * ((∑ k, lr k) - 1) : ℝ) : EReal) := by
    rw [zero_add]
    have h1 : ∀ k, ((((ar k : EReal) - (m : EReal)) - ((Real.log Zr : ℝ) : EReal))
          * (1 - (if k = i then (1 : EReal) else 0))) * (lr k : EReal)
        = (((((ar k - m) - Real.log Zr) * (1 - (if k = i then 1 else 0))) * lr k : ℝ) : EReal) := fun k => by
      rw [hs, hδ, ← EReal.coe_sub, ← EReal.coe_mul, ← EReal.coe_mul]
    simp only [h1]
    rw [coe_sum_real]
    congr 1
    have h2 : ∀ k, (((ar k - m) - Real.log Zr) * (1 - (if k = i then 1 else 0))) * lr k
        = ((ar k - m) * lr k - Real.log Zr * lr k) - (if k = i then ((ar k - m) - Real.log Zr) * lr k else 0) := fun k => by
      split_ifs <;> ring
    simp only [h2, Finset.sum_sub_distrib, Finset.sum_ite_eq', Finset.mem_univ, if_true, ← Finset.mul_sum]
    rw [hi]; ring
  unfold subRow maskRow
  rw [hZ, hcmp, sel_one, sel_one, hlog, hsdl, hn, hs i, hnumK, hZr, hlog, hnumR, zero_add, sub_eq_add_neg, zero_add]

end Cert.SupConRow

end
-- ==== Proof.KBlock.lean ====
import proofs.«149898_j74234214744331_2_alg».proof.Proof.KPiece
import proofs.«149898_j74234214744331_2_alg».proof.Proof.KPayload
import proofs.«149898_j74234214744331_2_alg».proof.Proof.LibSupConRow

/-!
# From the stored blocks to the array after the region

Grid point `t` stores rows `256·t … 256·t + 255` of the per-row loss. Entry `r` of that block is the
diagonal-subtracting arrangement of row `g = 256·t + r`: its similarities against every row of the feature matrix,
its label against every label, its own column `g`. The 32 blocks tile the `[8192, 1]` array, so after the region
the array holds that value at every row.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SupCon

open Cert.KernelIdeal Cert.KernelIdeal.Gen Cert.Keepdims Cert.SupConRow Cert.RowReads

/-- The row offset of both dynamic loads is 256 times the grid coordinate. -/
theorem off1_eq : ∀ i : grid0.Coords, k0_off1 i = ![256 * (i 0).val, 0] := by decide +kernel
theorem off2_eq : ∀ i : grid0.Coords, k0_off2 i = ![256 * (i 0).val, 0] := by decide +kernel

section Entry

variable (X0 : Vec Ideal S8192x128 .bf16) (X1 : Vec Ideal S8192x1 .i32) (X2 : Vec Ideal S1x8192 .i32)

/-- Row `r` of the point's feature block is row `256·i + r` of the matrix. -/
theorem qrows_apply (i : grid0.Coords) (r : Fin 256) (k : Fin 128) (g : Fin 8192) (hg : g.val = 256 * (i 0).val + r.val) :
    qrows i X0 (ix2 r k) = X0 (ix2 g k) := by
  unfold qrows
  show X0 _ = X0 _
  refine congrArg X0 (funext fun a => Fin.ext ?_)
  match a with
  | ⟨0, _⟩ =>
    show k0_off1 i 0 + 1 * r.val = g.val
    rw [off1_eq i]; show 256 * (i 0).val + 1 * r.val = g.val; omega
  | ⟨1, _⟩ =>
    show k0_off1 i 1 + 1 * k.val = k.val
    rw [off1_eq i]; show 0 + 1 * k.val = k.val; omega

/-- Entry `r` of the point's label block is label `256·i + r`. -/
theorem lrows_apply (i : grid0.Coords) (r : Fin 256) (g : Fin 8192) (hg : g.val = 256 * (i 0).val + r.val) :
    lrows i X1 (ix2 r 0) = X1 (ix2 g 0) := by
  unfold lrows
  show X1 _ = X1 _
  refine congrArg X1 (funext fun a => Fin.ext ?_)
  match a with
  | ⟨0, _⟩ =>
    show k0_off2 i 0 + 1 * r.val = g.val
    rw [off2_eq i]; show 256 * (i 0).val + 1 * r.val = g.val; omega
  | ⟨1, _⟩ =>
    show k0_off2 i 1 + 1 * 0 = 0
    rw [off2_eq i]; rfl

/-- Row `g` of the similarity matrix: its inner products with every row, times the reciprocal temperature. -/
def simRowK (g : Fin 8192) : Fin 8192 → EReal := fun j => (∑ k : Fin 128, X0 (ix2 g k) * X0 (ix2 j k)) * invT

/-- Row `g` of the per-row loss as the kernel arranges it. -/
def outEntry (g : Fin 8192) : EReal :=
  subRow (simRowK X0 g) (fun j => mask01 (X1 (ix2 g 0)) (X2 (ix2 0 j))) g
    ((Finset.univ : Finset (Fin 8192)).fold max (Ideal.ofBits .f32 0xFF800000#32) (simRowK X0 g))
    (Ideal.ofBits .f32 0x7FC00000#32)

/-- Entry `r` of the block stored at point `i` is row `256·i + r` of that loss. -/
theorem block_entry (i : grid0.Coords) (r : Fin 256) (g : Fin 8192) (hg : g.val = 256 * (i 0).val + r.val) :
    blockOf (F := Ideal) i X0 X1 X2 (ix2 r 0) = outEntry X0 X1 X2 g := by
  have hq : ∀ k, qrows i X0 (ix2 r k) = X0 (ix2 g k) := fun k => qrows_apply X0 i r k g hg
  have hl : lrows i X1 (ix2 r 0) = X1 (ix2 g 0) := lrows_apply X1 i r g hg
  unfold blockOf
  refine (loss_apply _ _ _ _ r).trans ?_
  simp only [zsub_apply, sdl_apply, diag_apply, lmask_apply, shifted_apply, rmax_apply, sim_apply, hq, hl]
  rfl

end Entry

section Array

variable (m : (ℓ : Loc nD τ sig) → Buf (Elt Ideal) ℓ) (ρ : Dev nD → PrngReg)

/-- The array the region leaves: the loss of every row, as a column. -/
def outArr (X0 : Vec Ideal S8192x128 .bf16) (X1 : Vec Ideal S8192x1 .i32) (X2 : Vec Ideal S1x8192 .i32) :
    S8192x1.Idx → EReal := fun i => outEntry X0 X1 X2 (i 0)

/-- The printed index maps over the grid: the three inputs are whole-array blocks at block (0, 0) at every point, the
    output's block row is the point itself, and the body's grid coordinate is the point. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ ((grid0.coords t) 0).val = t.val :=
  (by decide +kernel : ∀ t : Fin grid0.N, _)

/-- Each input window's block is the whole array as the region finds it. -/
theorem iblk0_eq (c : Dev nD) (t : Fin cfg0.N) : iblk m c 0 t = (V m c main_v1 : S8192x128.Idx → Elt Ideal .bf16) := by
  obtain ⟨e0, e1, -⟩ := idx_facts t
  funext y
  show V m c main_v1 (((cfg0.win 0).blk t).view.emb y) = V m c main_v1 y
  refine congrArg (V m c main_v1) (funext fun a => Fin.ext ?_)
  match a with
  | ⟨0, _⟩ => show win0_0.index t (0 : Fin 2) * 8192 + 1 * (y 0).val = (y 0).val; rw [e0]; omega
  | ⟨1, _⟩ => show win0_0.index t (1 : Fin 2) * 128 + 1 * (y 1).val = (y 1).val; rw [e1]; omega

theorem iblk1_eq (c : Dev nD) (t : Fin cfg0.N) : iblk m c 1 t = (V m c main_v2 : S8192x1.Idx → Elt Ideal .i32) := by
  obtain ⟨-, -, e0, e1, -⟩ := idx_facts t
  funext y
  show V m c main_v2 (((cfg0.win 1).blk t).view.emb y) = V m c main_v2 y
  refine congrArg (V m c main_v2) (funext fun a => Fin.ext ?_)
  match a with
  | ⟨0, _⟩ => show win0_1.index t (0 : Fin 2) * 8192 + 1 * (y 0).val = (y 0).val; rw [e0]; omega
  | ⟨1, _⟩ => show win0_1.index t (1 : Fin 2) * 1 + 1 * (y 1).val = (y 1).val; rw [e1]; omega

theorem iblk2_eq (c : Dev nD) (t : Fin cfg0.N) : iblk m c 2 t = (V m c main_v3 : S1x8192.Idx → Elt Ideal .i32) := by
  obtain ⟨-, -, -, -, e0, e1, -⟩ := idx_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1 + 1 * (y 0).val = (y 0).val; rw [e0]; omega
  | ⟨1, _⟩ => show win0_2.index t (1 : Fin 2) * 8192 + 1 * (y 1).val = (y 1).val; rw [e1]; omega

/-- An entry of the block stored at a point whose coordinate is `tv`, read where the output's rectangle puts it. -/
theorem block_read (X0 B0 : Vec Ideal S8192x128 .bf16) (X1 B1 : Vec Ideal S8192x1 .i32) (X2 B2 : Vec Ideal S1x8192 .i32)
    (h0 : B0 = X0) (h1 : B1 = X1) (h2 : B2 = X2) (i : grid0.Coords) (tv : ℕ) (hi : (i 0).val = tv)
    (y : S256x1.Idx) (e : S8192x1.Idx) (he : (e 0).val = tv * 256 + 1 * (y 0).val) :
    blockOf (F := Ideal) i B0 B1 B2 y = outArr X0 X1 X2 e := by
  subst h0 h1 h2
  have hy : y = ix2 (y 0) 0 := by
    rw [eq_ix2 y]; congr 1
    exact Fin.ext (by have h1 : (y 1).val < 1 := (y 1).isLt; show (y 1).val = 0; omega)
  rw [hy]
  exact block_entry B0 B1 B2 i (y 0) (e 0) (by show (e 0).val = 256 * (i 0).val + (y 0).val; rw [he, hi]; omega)

/-- WHAT POINT `t` WRITES BACK is block `t` of the per-row loss of the arrays as the region finds them. -/
theorem flushed3_eq (c : Dev nD) (t : Fin cfg0.N) :
    (dats m 0 c).flushed 3 t
      = ((cfg0.win 3).blk t).view.read (Elt Ideal) (outArr (V m c main_v1) (V m c main_v2) (V m c main_v3)) := by
  show (cfg0.win 3).cut (grid0.coords t) ((dats m 0 c).after 3 t) = _
  rw [after0_3]
  unfold outsAt0
  rw [out_eq (F := Ideal) c (grid0.coords t) (ms0_0 t) (hs0_0 t) (ms0_1 t) (hs0_1 t) (ms0_2 t) (hs0_2 t) (ms0_3 t) (hs0_3 t)
    (iblk m c 0 t) (iblk m c 1 t) (iblk m c 2 t)]
  obtain ⟨-, -, -, -, -, -, e6, e7, e8⟩ := idx_facts t
  funext y
  show blockOf (F := Ideal) (grid0.coords t) (iblk m c 0 t) (iblk m c 1 t) (iblk m c 2 t) y
      = outArr (V m c main_v1) (V m c main_v2) (V m c main_v3) (((cfg0.win 3).blk t).view.emb y)
  exact block_read (V m c main_v1) (iblk m c 0 t) (V m c main_v2) (iblk m c 1 t) (V m c main_v3) (iblk m c 2 t)
    (iblk0_eq m c t) (iblk1_eq m c t) (iblk2_eq m c t) (grid0.coords t) t.val e8 y _
    (by show win0_3.index t (0 : Fin 2) * 256 + 1 * (y 0).val = t.val * 256 + 1 * (y 0).val; rw [e6])

/-- An index of the array is in point `t`'s block iff each coordinate is in the block's range on its axis. -/
theorem mem_blk3 (t : Fin cfg0.N) (i : S8192x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v4).slice (win0_3.rect t)).set ↔ _
  rw [View.set_slice_whole, Rect.mem_set_unit]
  exact Iff.rfl

/-- Every row is in the block of the point `row / 256`. -/
theorem cover3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 32 := N_0
  have hlt : (i 0).val / 256 < cfg0.N := by rw [hN]; omega
  refine ⟨⟨(i 0).val / 256, hlt⟩, flush0_3 _, ?_⟩
  rw [mem_blk3]
  obtain ⟨-, -, -, -, -, -, e6, e7, -⟩ := idx_facts ⟨(i 0).val / 256, hlt⟩
  intro a
  match a with
  | ⟨0, _⟩ =>
    show win0_3.index ⟨(i 0).val / 256, hlt⟩ (0 : Fin 2) * 256 ≤ (i 0).val
      ∧ (i 0).val < win0_3.index ⟨(i 0).val / 256, hlt⟩ (0 : Fin 2) * 256 + 256
    rw [e6]; show (i 0).val / 256 * 256 ≤ (i 0).val ∧ (i 0).val < (i 0).val / 256 * 256 + 256; omega
  | ⟨1, _⟩ =>
    show win0_3.index ⟨(i 0).val / 256, hlt⟩ (1 : Fin 2) * 1 ≤ (i 1).val
      ∧ (i 1).val < win0_3.index ⟨(i 0).val / 256, hlt⟩ (1 : Fin 2) * 1 + 1
    rw [e7]; omega

/-- THE ARRAY after the region: the per-row loss of the arrays as the region finds them. -/
theorem final3 (c : Dev nD) :
    (dats m 0 c).arrAt 3 cfg0.N = outArr (V m c main_v1) (V m c main_v2) (V m c main_v3) :=
  (dats m 0 c).arrAt_eq_of_cover 3 _ (fun t _ => flushed3_eq m c t) cover3

end Array

end Cert.KernelIdeal.SupCon

end
-- ==== Proof.Spec.lean ====
import proofs.«149898_j74234214744331_2_alg».proof.Proof.LibSupConRow
import Idealize.ShloMosaic.Lib.ValueIdx

/-!
# The loss both programs compute

For features `X : 8192 × 128` over the extended reals and labels `lab : 8192`:

* `simRow X g j = (∑ₖ X g k · X j k) · c`, with `c = 67108864 / 13421773` the reciprocal of the temperature's f32
  value `13421773 / 67108864`;
* `rowMax X g`, the fold of `max` over row `g` from `-∞`;
* `labMask lab g j = [lab g = lab j]`;
* `rowLoss X lab g`, the masking arrangement of row `g` (Cert.SupConRow.maskRow) at column `g`;
* `meanLoss X lab = (0 + ∑ rowLoss) / 8192`.

`subLoss` is the same row in the diagonal-subtracting arrangement; on real features the two agree.
-/

noncomputable section

open Idealize Idealize.ShloMosaic

namespace Cert.SupConSpec

open Cert.SupConRow Cert.Proof.RealOps Idealize.ShloMosaic.ValueIdx

/-- The `[8192, 1, 128]` feature argument as an `8192 × 128` matrix. -/
def feat (x0 : (⟨3, ![8192, 1, 128]⟩ : Shape).Idx → EReal) : Fin 8192 → Fin 128 → EReal := fun i k => x0 (ix3 i 0 k)

/-- The `[8192]` label argument as a function of the row. -/
def labs (x1 : (⟨1, ![8192]⟩ : Shape).Idx → BitVec 32) : Fin 8192 → BitVec 32 := fun i => x1 (ix1 i)

/-- The reciprocal temperature: one over the f32 value nearest 0.2. -/
def cT : EReal := ((67108864 / 13421773 : ℝ) : EReal)

def simRow (X : Fin 8192 → Fin 128 → EReal) (g : Fin 8192) : Fin 8192 → EReal :=
  fun j => (∑ k : Fin 128, X g k * X j k) * cT

def rowMax (X : Fin 8192 → Fin 128 → EReal) (g : Fin 8192) : EReal :=
  (Finset.univ : Finset (Fin 8192)).fold max (Ideal.ofBits .f32 0xFF800000#32) (simRow X g)

def labMask (lab : Fin 8192 → BitVec 32) (g : Fin 8192) : Fin 8192 → EReal :=
  fun j => if lab g = lab j then 1 else 0

/-- Row `g` of the loss, masking arrangement. -/
def rowLoss (X : Fin 8192 → Fin 128 → EReal) (lab : Fin 8192 → BitVec 32) (g : Fin 8192) : EReal :=
  maskRow (simRow X g) (labMask lab g) g (rowMax X g)

/-- Row `g` of the loss, diagonal-subtracting arrangement, guarded; `nan` fills the guard's other branch. -/
def subLoss (X : Fin 8192 → Fin 128 → EReal) (lab : Fin 8192 → BitVec 32) (nan : EReal) (g : Fin 8192) : EReal :=
  subRow (simRow X g) (labMask lab g) g (rowMax X g) nan

/-- The mean over the 8192 rows. -/
def meanLoss (X : Fin 8192 → Fin 128 → EReal) (lab : Fin 8192 → BitVec 32) : EReal :=
  Ideal.div (0 + ∑ g : Fin 8192, rowLoss X lab g) (Ideal.ofBits .f32 0x46000000#32)

/-- The f32 pattern of `-∞` denotes the bottom of the extended reals. -/
theorem ofBits_neg_inf : Ideal.ofBits .f32 0xFF800000#32 = ⊥ := by simp [Ideal.ofBits, Ideal.ieee]

/-- On real features every similarity is a real. -/
theorem simRow_real (X : Fin 8192 → Fin 128 → EReal) (hX : ∀ i k, ∃ r : ℝ, X i k = (r : EReal)) (g j : Fin 8192) :
    ∃ r : ℝ, simRow X g j = (r : EReal) :=
  real_mul (real_sum _ _ fun k _ => real_mul (hX g k) (hX j k)) ⟨_, rfl⟩

/-- On real features the two arrangements of a row are one value: the row maximum is a real (a fold of `max` over
    8192 reals), the mask is real with a one on the diagonal, and the row has a second column. -/
theorem subLoss_eq_rowLoss (X : Fin 8192 → Fin 128 → EReal) (hX : ∀ i k, ∃ r : ℝ, X i k = (r : EReal))
    (lab : Fin 8192 → BitVec 32) (nan : EReal) (g : Fin 8192) : subLoss X lab nan g = rowLoss X lab g := by
  choose ar har using fun j => simRow_real X hX g j
  obtain ⟨m, hm⟩ : ∃ m : ℝ, rowMax X g = (m : EReal) := by
    unfold rowMax; rw [ofBits_neg_inf]
    exact real_fold_max Finset.univ _ (fun j _ => simRow_real X hX g j) Finset.univ_nonempty
  refine subRow_eq_maskRow (simRow X g) (labMask lab g) g (rowMax X g) nan ar
    (fun j => if lab g = lab j then 1 else 0) m har (fun j => ?_) hm (if_pos rfl) ?_
  · unfold labMask; split_ifs <;> simp
  · by_cases h0 : g = 0
    · exact ⟨1, by rw [h0]; decide⟩
    · exact ⟨0, fun h => h0 h.symm⟩

end Cert.SupConSpec

end
-- ==== Proof.KRun.lean ====
import proofs.«149898_j74234214744331_2_alg».proof.Proof.KBlock
import proofs.«149898_j74234214744331_2_alg».proof.Proof.Spec
import Idealize.ShloMosaic.Lib.StableHlo.Run
import Idealize.ShloMosaic.Lib.ValueLayout
import Idealize.ShloMosaic.PureOps.IdealRules

/-!
# The kernel's result

Before the region the host reshapes the features to `[8192, 128]` (and changes their format, the identity over the
extended reals) and the labels to a column and to a row; after it, it sums the `[8192, 1]` column of row losses and
divides by 8192. With the region's array known row by row, and each row's two arrangements equal on finite features,
the result is the mean loss of the specification.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SupCon

open Cert.KernelIdeal Cert.KernelIdeal.Gen Cert.Keepdims Cert.SupConRow Cert.SupConSpec Cert.RowReads

variable (m : (ℓ : Loc nD τ sig) → Buf (Elt Ideal) ℓ) (ρ : Dev nD → PrngReg)

/-- The named constant denotes the reciprocal temperature of the specification. -/
theorem invT_eq : invT = cT := IdealRules.named_const.ideal_named_scalar _ _ _ _ rfl

/-! ## The arrays the region finds -/

theorem V1_apply (c : Dev nD) (i : Fin 8192) (k : Fin 128) :
    (V m c main_v1 : S8192x128.Idx → Elt Ideal .bf16) (ix2 i k)
      = (m ((c : Thread nD τ).loc main_arg0) : S8192x1x128.Idx → EReal) (ix3 i 0 k) := by
  have e : (V m c main_v1 : S8192x128.Idx → Elt Ideal .bf16)
      = truncf (F := Ideal) .bf16 (shapeCast S8192x128 (m ((c : Thread nD τ).loc main_arg0)) shapeCasts_S8192x1x128_S8192x128)
          bitsLt_bf16_f32 := by
    show StableHlo.after hostOps0 (fun b => m (c, b)) (Proc.devRef .tc main_v1) = _
    after_results; rfl
  rw [e]
  show shapeCast S8192x128 (m ((c : Thread nD τ).loc main_arg0)) shapeCasts_S8192x1x128_S8192x128 (ix2 i k) = _
  exact shapeCast_apply _ _ _ _ (by
    show (S8192x1x128.rowMajor (ix3 i 0 k)).val = (S8192x128.rowMajor (ix2 i k)).val
    rw [Shape.rowMajor_val_three, Shape.rowMajor_val_two]
    show (i.val * 1 + 0) * 128 + k.val = i.val * 128 + k.val; omega)

theorem V2_apply (c : Dev nD) (i : Fin 8192) :
    (V m c main_v2 : S8192x1.Idx → Elt Ideal .i32) (ix2 i 0)
      = (m ((c : Thread nD τ).loc main_arg1) : S8192.Idx → BitVec 32) (ix1 i) := by
  have e : (V m c main_v2 : S8192x1.Idx → Elt Ideal .i32)
      = shapeCast S8192x1 (m ((c : Thread nD τ).loc main_arg1)) shapeCasts_S8192_S8192x1 := by
    show StableHlo.after hostOps0 (fun b => m (c, b)) (Proc.devRef .tc main_v2) = _
    after_results; rfl
  rw [e]
  exact shapeCast_a_a1_apply _ _ i 0

theorem V3_apply (c : Dev nD) (j : Fin 8192) :
    (V m c main_v3 : S1x8192.Idx → Elt Ideal .i32) (ix2 0 j)
      = (m ((c : Thread nD τ).loc main_arg1) : S8192.Idx → BitVec 32) (ix1 j) := by
  have e : (V m c main_v3 : S1x8192.Idx → Elt Ideal .i32)
      = shapeCast S1x8192 (m ((c : Thread nD τ).loc main_arg1)) shapeCasts_S8192_S1x8192 := by
    show StableHlo.after hostOps0 (fun b => m (c, b)) (Proc.devRef .tc main_v3) = _
    after_results; rfl
  rw [e]
  exact shapeCast_a_1a_apply _ _ 0 j

/-- Row `g` of the region's array is the diagonal-subtracting row loss of the arguments. -/
theorem outArr_apply (c : Dev nD) (g : Fin 8192) :
    outArr (V m c main_v1) (V m c main_v2) (V m c main_v3) (ix2 g 0)
      = subLoss (feat (m ((c : Thread nD τ).loc main_arg0))) (labs (m ((c : Thread nD τ).loc main_arg1)))
          (Ideal.ofBits .f32 0x7FC00000#32) g := by
  unfold outArr outEntry subLoss
  have hs : simRowK (V m c main_v1) g = simRow (feat (m ((c : Thread nD τ).loc main_arg0))) g := by
    funext j
    unfold simRowK simRow feat
    rw [invT_eq]
    exact congrArg (· * cT) (Finset.sum_congr rfl fun k _ => by rw [V1_apply, V1_apply])
  have hl : (fun j => mask01 ((V m c main_v2 : S8192x1.Idx → Elt Ideal .i32) (ix2 g 0))
        ((V m c main_v3 : S1x8192.Idx → Elt Ideal .i32) (ix2 0 j)))
      = labMask (labs (m ((c : Thread nD τ).loc main_arg1))) g := by
    funext j
    rw [V2_apply, V3_apply]; rfl
  show subRow (simRowK (V m c main_v1) g) _ g _ _ = _
  rw [hs]
  exact congrArg (fun l => subRow _ l g _ _) hl

/-! ## The result -/

/-- Rows of the `[8192, 1]` column and row numbers. -/
def colEquiv : S8192x1.Idx ≃ Fin 8192 where
  toFun i := i 0
  invFun g := ix2 g 0
  left_inv i := by
    have h1 : (i 1).val < 1 := (i 1).isLt
    funext a; apply Fin.ext
    match a with
    | ⟨0, _⟩ => rfl
    | ⟨1, _⟩ => show (0 : ℕ) = (i 1).val; omega
  right_inv g := rfl

/-- On finite features the kernel's result is the mean loss. -/
theorem result_eq (c : Dev nD)
    (hfin : ∀ i k, ∃ r : ℝ, feat (m ((c : Thread nD τ).loc main_arg0)) i k = (r : EReal)) :
    Pipeline.afterTail₀ cfgs (dats m) 0 (V0 m) [hostOps1] c main_v6
      = fun _ => meanLoss (feat (m ((c : Thread nD τ).loc main_arg0))) (labs (m ((c : Thread nD τ).loc main_arg1))) := by
  unfold Pipeline.afterTail₀
  show StableHlo.after hostOps1 _ (Proc.devRef .tc main_v6) = _
  after_results
  have hA : Pipeline.withArrays (cfgs 0).spec c (V0 m c) (fun w => (dats m 0 c).arrAt w (cfgs 0).N) (Proc.tc.devRef main_v4)
      = outArr (V m c main_v1) (V m c main_v2) (V m c main_v3) :=
    (Pipeline.withArrays_arr spec0 launch0.win.arr_inj c _ _ 3).trans (final3 m c)
  rw [hA]
  funext i0
  unfold meanLoss
  show Ideal.div (FloatOps.hostReduceAdd [0, 1] reducesTo_S8192x1_S_d0_1 .single
      (outArr (V m c main_v1) (V m c main_v2) (V m c main_v3)) (Ideal.ofBits .f32 0x00000000#32) i0)
    (Ideal.ofBits .f32 0x46000000#32) = _
  rw [Ideal.hostReduceAdd_def, Ideal.hostReduceAdd_total reducesTo_S8192x1_S_d0_1 (fun b => b.elim0), Ideal.ofBits_zero_f32]
  refine congrArg (fun s => Ideal.div (0 + s) _) ?_
  refine (Fintype.sum_equiv colEquiv _ _ fun i => ?_)
  have hi : i = ix2 (colEquiv i) 0 := (colEquiv.left_inv i).symm
  rw [hi, outArr_apply]
  exact subLoss_eq_rowLoss _ hfin _ _ _

end Cert.KernelIdeal.SupCon

end
-- ==== Proof.RefRead.lean ====
import proofs.«149898_j74234214744331_2_alg».proof.Proof.Gen.ReferenceIdeal.Read
import proofs.«149898_j74234214744331_2_alg».proof.Proof.Spec
import proofs.«149898_j74234214744331_2_alg».proof.Proof.LibRowReads

/-!
# The reference's result

The reference forms the whole `8192 × 8192` similarity matrix `f fᵀ / T`, shifts each row by its maximum, masks the
diagonal with `1 - eye`, takes the log of the masked row sums of exponentials, and averages the masked, label-masked
log-probabilities. Read row by row this is the masking arrangement of the specification: dividing by the
temperature's f32 value `13421773 / 67108864` is multiplying by its reciprocal.
-/

set_option maxRecDepth 16384

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read
open Cert.SupConSpec Cert.SupConRow Cert.RowReads Cert.Proof.RealOps

variable (x0 : (⟨S8192x1x128, .f32⟩ : BufTy).Contents (Elt Ideal)) (x1 : (⟨S8192, .i32⟩ : BufTy).Contents (Elt Ideal))

/-- The temperature's f32 literal is the rational `13421773 / 67108864`. -/
theorem ofBits_temp : Ideal.ofBits .f32 0x3E4CCCCD#32 = ((13421773 / 67108864 : ℝ) : EReal) := by
  simp [Ideal.ofBits, Ideal.ieee, -EReal.coe_mul]; norm_num

theorem idxL (i j : Fin 8192) (k : Fin 128) : idx_main_v0 (lidx_main_v8 (ix2 i j) k) = ix3 i 0 k :=
  funext fun a => Fin.ext (by
    have hk := k.isLt
    match a with
    | ⟨0, _⟩ => show (i.val * 128 + k.val) / 128 = i.val; omega
    | ⟨1, _⟩ => rfl
    | ⟨2, _⟩ => show (i.val * 128 + k.val) % 128 = k.val; omega)

theorem idxR (i j : Fin 8192) (k : Fin 128) : idx_main_v0 (idx_main_v7 (ridx_main_v8 (ix2 i j) k)) = ix3 j 0 k :=
  funext fun a => Fin.ext (by
    have hk := k.isLt
    match a with
    | ⟨0, _⟩ => show (j.val * 128 + k.val) / 128 = j.val; omega
    | ⟨1, _⟩ => rfl
    | ⟨2, _⟩ => show (j.val * 128 + k.val) % 128 = k.val; omega)

/-- The similarity matrix: the quotient by the temperature is the product with its reciprocal. -/
theorem sim_apply (i j : Fin 8192) : val_main_v10 (F := Ideal) x0 (ix2 i j) = simRow (feat x0) i j := by
  rw [val_main_v10_apply, val_main_v8_apply, val_main_v9_apply, val_main_cst_apply]
  show Ideal.div _ (Ideal.ofBits .f32 0x3E4CCCCD#32) = _
  rw [ofBits_temp, Ideal.div_coe (by norm_num : (13421773 / 67108864 : ℝ) ≠ 0),
    show ((1 / (13421773 / 67108864) : ℝ)) = 67108864 / 13421773 by norm_num]
  unfold simRow cT feat
  refine congrArg (· * _) (Finset.sum_congr rfl fun k _ => ?_)
  rw [val_main_v7_apply, val_main_v0_apply, val_main_v0_apply, idxL, idxR]

/-- The row maximum. -/
theorem rmax_apply (i : Fin 8192) : val_main_v11 (F := Ideal) x0 (ix1 i) = rowMax (feat x0) i := by
  unfold val_main_v11 rowMax
  refine (hostRowMax_apply _ _ reducesTo_S8192x8192_S8192_d1 (by decide) h_S_ i).trans ?_
  exact congrArg (fun f => Finset.fold max (Ideal.ofBits .f32 0xFF800000#32) f (Finset.univ : Finset (Fin 8192)))
    (funext fun j => sim_apply x0 i j)

/-- The shifted similarity. -/
theorem shifted_apply (i j : Fin 8192) :
    val_main_v14 (F := Ideal) x0 (ix2 i j) = simRow (feat x0) i j - rowMax (feat x0) i := by
  have e : idx_main_v12 (idx_main_v13 (ix2 i j)) = ix1 i := funext fun a => Fin.ext (by match a with | ⟨0, _⟩ => rfl)
  rw [val_main_v14_apply, val_main_v13_apply, val_main_v12_apply, sim_apply, e, rmax_apply]; rfl

/-- The off-diagonal mask `1 - eye`. -/
theorem offdiag_apply (i j : Fin 8192) : val_main_v22 (F := Ideal) (ix2 i j) = 1 - (if j = i then 1 else 0) := by
  rw [val_main_v22_apply, val_main_v21_apply, val_main_cst_1_apply, val_main_v20_apply, val_main_v19_apply,
    val_main_v18_apply, val_main_v17_apply, val_main_c_apply, val_main_v16_apply, val_main_v15_apply]
  show Ideal.ofBits .f32 0x3F800000#32
      - ((((IntOp.cmpi .eq (BitVec.ofNat 32 i.val + 0#32) (BitVec.ofNat 32 j.val)).toNat : ℝ)) : EReal) = _
  rw [ofBits_one_f32, uext_cmpi_eq, BitVec.add_zero]
  unfold mask01
  refine congrArg (1 - ·) (if_congr ?_ rfl rfl)
  rw [ofNat32_inj (by have := i.isLt; omega) (by have := j.isLt; omega)]
  exact ⟨fun h => (Fin.ext h).symm, fun h => by rw [h]⟩

/-- The label mask. -/
theorem lmask_apply (i j : Fin 8192) : val_main_v6 (F := Ideal) x1 (ix2 i j) = labMask (labs x1) i j := by
  have e1 : idx_main_v1 (idx_main_v3 (ix2 i j)) = ix1 i :=
    funext fun a => Fin.ext (by match a with | ⟨0, _⟩ => show i.val * 1 + 0 = i.val; omega)
  have e2 : idx_main_v1 (idx_main_v2 (idx_main_v4 (ix2 i j))) = ix1 j :=
    funext fun a => Fin.ext (by match a with | ⟨0, _⟩ => show j.val * 1 + 0 = j.val; omega)
  rw [val_main_v6_apply, val_main_v5_apply, val_main_v3_apply, val_main_v4_apply, val_main_v2_apply, val_main_v1_apply,
    val_main_v1_apply, e1, e2]
  show ((((IntOp.cmpi .eq (x1 (ix1 i)) (x1 (ix1 j))).toNat : ℝ)) : EReal) = _
  rw [uext_cmpi_eq]; rfl

/-- The masked row sum of exponentials. -/
theorem zmask_apply (i : Fin 8192) :
    val_main_v25 (F := Ideal) x0 (ix1 i)
      = 0 + ∑ j : Fin 8192, Ideal.exp (simRow (feat x0) i j - rowMax (feat x0) i) * (1 - (if j = i then 1 else 0)) := by
  rw [val_main_v25_apply, val_main_cst_2_apply]
  show Ideal.ofBits .f32 0x00000000#32 + _ = _
  rw [Ideal.ofBits_zero_f32]
  refine congrArg (0 + ·) (Finset.sum_congr rfl fun j _ => ?_)
  have e : idx_main_v25 (ix1 i) j = ix2 i j :=
    funext fun a => Fin.ext (by match a with | ⟨0, _⟩ => rfl | ⟨1, _⟩ => rfl)
  rw [e, val_main_v24_apply, val_main_v23_apply, shifted_apply, offdiag_apply]; rfl

/-- Its logarithm, kept as a column. -/
theorem logz_apply (i : Fin 8192) (u : Fin 1) :
    val_main_v27 (F := Ideal) x0 (ix2 i u) = Ideal.log (val_main_v25 (F := Ideal) x0 (ix1 i)) := by
  have e : idx_main_v26 (ix2 i u) = ix1 i := funext fun a => Fin.ext (by match a with | ⟨0, _⟩ => rfl)
  rw [val_main_v27_apply, val_main_v26_apply, e]; rfl

/-- Row `i` of the reference's loss is the masking arrangement of the specification. -/
theorem row_apply (i : Fin 8192) : val_main_v35 (F := Ideal) x0 x1 (ix1 i) = rowLoss (feat x0) (labs x1) i := by
  have e32 : ∀ k, idx_main_v32 (ix1 i) k = ix2 i k := fun k =>
    funext fun a => Fin.ext (by match a with | ⟨0, _⟩ => rfl | ⟨1, _⟩ => rfl)
  have e33 : ∀ k, idx_main_v33 (ix1 i) k = ix2 i k := fun k =>
    funext fun a => Fin.ext (by match a with | ⟨0, _⟩ => rfl | ⟨1, _⟩ => rfl)
  have e28 : ∀ k : Fin 8192, idx_main_v28 (ix2 i k) = ix2 i 0 := fun k =>
    funext fun a => Fin.ext (by match a with | ⟨0, _⟩ => rfl | ⟨1, _⟩ => rfl)
  rw [val_main_v35_apply, val_main_v34_apply, val_main_v32_apply, val_main_v33_apply, val_main_cst_3_apply,
    val_main_cst_4_apply]
  unfold rowLoss maskRow
  show -(Ideal.div (Ideal.ofBits .f32 0x00000000#32 + ∑ k : Fin 8192, val_main_v31 (F := Ideal) x0 x1 (idx_main_v32 (ix1 i) k))
      (Ideal.ofBits .f32 0x00000000#32 + ∑ k : Fin 8192, val_main_v6 (F := Ideal) x1 (idx_main_v33 (ix1 i) k))) = _
  rw [Ideal.ofBits_zero_f32]
  simp only [e32, e33, lmask_apply]
  refine congrArg (fun s => -(Ideal.div (0 + s) _)) (Finset.sum_congr rfl fun k _ => ?_)
  rw [val_main_v31_apply, val_main_v30_apply, val_main_v29_apply, val_main_v28_apply, lmask_apply, offdiag_apply,
    shifted_apply, e28, logz_apply, zmask_apply]; rfl

/-- Summing the rows over the `[8192]` index type is summing over the row numbers. -/
def vecEquiv : S8192.Idx ≃ Fin 8192 where
  toFun j := j 0
  invFun g := ix1 g
  left_inv j := (eq_ix1 j).symm
  right_inv g := rfl

theorem sum_rows :
    (∑ j : S8192.Idx, val_main_v35 (F := Ideal) x0 x1 j) = ∑ g : Fin 8192, rowLoss (feat x0) (labs x1) g := by
  refine Fintype.sum_equiv vecEquiv _ _ fun j => ?_
  exact (congrArg (val_main_v35 (F := Ideal) x0 x1) (eq_ix1 j)).trans (row_apply x0 x1 (j 0))

/-- The reference's result is the mean loss. -/
theorem result_eq : val_main_v37 (F := Ideal) x0 x1 = fun _ => meanLoss (feat x0) (labs x1) := by
  funext i0
  rw [val_main_v37_apply, val_main_v36_apply, val_main_cst_5_apply, val_main_cst_6_apply, sum_rows]
  simp only [Ideal.hostDivf_def, Ideal.ofBits_def, Ideal.ofBits_zero_f32]
  rfl

end Cert.ReferenceIdeal.RefValue

end
-- ==== Proof.Finite.lean ====
import proofs.«149898_j74234214744331_2_alg».proof.Pre_finite_inputs
import Idealize.ShloMosaic.Lib.ReduceAll
import Idealize.ShloMosaic.Lib.ValueIdx
import Idealize.ShloMosaic.PureOps.Ideal.Laws

/-!
# Finite inputs are real numbers

The precondition says that `|x| < +∞` holds at every entry of the feature array (a reduction by `and` over all
entries that is 1). Over the extended reals `|x| = max x (-x)`; it is below `⊤` only when `x` is neither
`⊤` nor `⊥`, that is, when `x` is a real number.
-/

noncomputable section

open Idealize.ShloMosaic

namespace Cert.FiniteInputs

open Cert.Pre_finite_inputs

instance : Subsingleton S_.Idx := ⟨fun a b => funext fun d => d.elim0⟩

/-- The f32 pattern of `+∞` denotes the top of the extended reals. -/
theorem ofBits_pos_inf : Ideal.ofBits .f32 0x7F800000#32 = ⊤ := by simp [Ideal.ofBits, Ideal.ieee]

/-- Where the precondition holds, every feature entry is a real. -/
theorem real_of_pre [Facts] (x0 : FVec Ideal S8192x1x128 .f32) (x1 : IVec S8192 32)
    (h : fn (F := Ideal) x0 x1 = fun _ => 1#1) (i : S8192x1x128.Idx) : ∃ r : ℝ, x0 i = (r : EReal) := by
  have h0 := congrFun h ValueIdx.ix0
  dsimp only [fn] at h0
  have hi := Host.reduce_andi_all _ _ _ _ _ h0 i
  have h1 : BitVec.ofBool (decide (max (x0 i) (-(x0 i)) < Ideal.ofBits .f32 0x7F800000#32)) = 1#1 := hi
  rw [ofBits_pos_inf] at h1
  have hlt : max (x0 i) (-(x0 i)) < (⊤ : EReal) := by
    by_contra hn
    rw [decide_eq_false hn] at h1
    exact absurd h1 (by decide)
  generalize x0 i = a at hlt ⊢
  induction a using EReal.rec with
  | bot => simp at hlt
  | coe r => exact ⟨r, rfl⟩
  | top => simp at hlt

end Cert.FiniteInputs

end
-- ==== Proof.lean ====
/-
  A supervised-contrastive loss over 8192 feature rows of width 128 with integer labels, against its jnp reference,
  over the extended reals.

  Both programs compute, for each row g, the similarities  sim g j = ⟨f g, f j⟩ · c  against every row, shift them by
  the row maximum, and average over the rows the quantity

      − ( ∑_{j ≠ g, lab j = lab g} ( s g j − log ∑_{k ≠ g} exp (s g k) ) ) / #{ j : lab j = lab g } .

  The reference masks the diagonal by multiplying with 1 − eye and divides the inner products by the temperature's
  f32 value 13421773 / 67108864. The kernel multiplies by the folded reciprocal, named here its exact value
  67108864 / 13421773 (the source computes it as 1 / TEMPERATURE), removes the diagonal by subtracting its own term —
  read off the block's Gram matrix through an iota comparison — and distributes the log term over the label count;
  it also guards the sum of exponentials being positive.

  Dividing by a nonzero real is multiplying by its reciprocal on every extended real. The other two steps — removing
  one term from a sum by subtraction, and distributing a product over a sum — hold over the reals and fail at the
  infinities, so they use the precondition: every feature is finite, hence every similarity, the row maximum and every
  exponential is a real, and the off-diagonal sum of exponentials is a positive real (the row has 8191 other columns),
  so the guard always holds.

  Proof/LibSupConRow.lean is that row identity over any finite index type; Proof/Spec.lean states the loss and applies
  the identity on real features. On the kernel side, Proof/KPiece.lean reads the block a grid point stores as the
  body's arithmetic of its loads, Proof/KPayload.lean reads that arithmetic entry by entry, Proof/KBlock.lean puts the
  32 blocks of 256 rows together into the array after the region, and Proof/KRun.lean adds the host's reshapes before
  and its mean after. Proof/RefRead.lean reads the reference row by row; Proof/Finite.lean turns the precondition into
  real-valuedness.
-/
import proofs.«149898_j74234214744331_2_alg».proof.Defs
import proofs.«149898_j74234214744331_2_alg».proof.Proof.Gen.Kernel
import proofs.«149898_j74234214744331_2_alg».proof.Proof.Gen.Kernel.Skeleton
import proofs.«149898_j74234214744331_2_alg».proof.Proof.Gen.Kernel.Launch
import proofs.«149898_j74234214744331_2_alg».proof.Proof.Gen.Kernel.Points
import proofs.«149898_j74234214744331_2_alg».proof.Proof.Gen.Kernel.Frame
import proofs.«149898_j74234214744331_2_alg».proof.Proof.Gen.KernelIdeal
import proofs.«149898_j74234214744331_2_alg».proof.Proof.Gen.KernelIdeal.Skeleton
import proofs.«149898_j74234214744331_2_alg».proof.Proof.Gen.KernelIdeal.Launch
import proofs.«149898_j74234214744331_2_alg».proof.Proof.Gen.KernelIdeal.Points
import proofs.«149898_j74234214744331_2_alg».proof.Proof.Gen.KernelIdeal.Frame
import proofs.«149898_j74234214744331_2_alg».proof.Proof.Gen.ReferenceIdeal
import proofs.«149898_j74234214744331_2_alg».proof.Proof.Gen.ReferenceIdeal.Run
import proofs.«149898_j74234214744331_2_alg».proof.Proof.Gen.ReferenceIdeal.Read
import proofs.«149898_j74234214744331_2_alg».proof.Proof.Gen.Pre_finite_inputs
import proofs.«149898_j74234214744331_2_alg».proof.Proof.KRun
import proofs.«149898_j74234214744331_2_alg».proof.Proof.RefRead
import proofs.«149898_j74234214744331_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx
open Cert.SupConSpec

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both occurrences of the folded reciprocal temperature carry the name whose value the table gives. -/
theorem preserves : Cert.preserves_Kernel_KernelIdeal :=
  ⟨IdealRules.named_const.statement Cert.KernelIdeal.κ "inv_t" .f32 0x40A00000#32 ((67108864 / 13421773 : ℝ) : EReal) rfl,
    IdealRules.named_const.statement Cert.KernelIdeal.κ "inv_t" .f32 0x40A00000#32 ((67108864 / 13421773 : ℝ) : EReal) rfl⟩

/-- From memories agreeing on the arguments, with finite features, both programs end at the mean loss of the
    specification. -/
theorem algebraic : Cert.algebraic_KernelIdeal_ReferenceIdeal := by
  intro m ρ m' ρ' hpre hagree
  have hfin : ∀ (c : Dev Cert.KernelIdeal.nD) (i : Fin 8192) (k : Fin 128), ∃ r : ℝ,
      feat (m ((c.tc : Thread Cert.KernelIdeal.nD Cert.KernelIdeal.τ).loc Cert.KernelIdeal.main_arg0)) i k = (r : EReal) :=
    fun c i k => Cert.FiniteInputs.real_of_pre _ _ (hpre c) (ix3 i 0 k)
  refine ⟨fun c _ => meanLoss
      (feat (m ((c.tc : Thread Cert.KernelIdeal.nD Cert.KernelIdeal.τ).loc Cert.KernelIdeal.main_arg0)))
      (labs (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Gen.run_main m ρ)
    · exact ((h c).2 Cert.KernelIdeal.main_v6
        (Pipeline.mem_restRefs_of Cert.KernelIdeal.main_v6 (by decide) (by decide))).trans
        (Cert.KernelIdeal.SupCon.result_eq m c (hfin c))
    · exact ((h c).2 Cert.KernelIdeal.main_arg0
        (Pipeline.mem_restRefs_of Cert.KernelIdeal.main_arg0 (by decide) (by decide))).trans
        (Cert.KernelIdeal.Gen.W_main_arg0 m (Cert.KernelIdeal.Gen.dats m) c)
    · exact ((h c).2 Cert.KernelIdeal.main_arg1
        (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨?_, (h c).2.1, (h c).2.2⟩)
      (Cert.ReferenceIdeal.Value.run (F := Ideal) m' ρ')
    rw [(h c).1, Cert.ReferenceIdeal.Read.val_main_v37_eq, Cert.ReferenceIdeal.RefValue.result_eq,
      (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
